-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S3x2x64x64 : Shape := ⟨4, ![3, 2, 64, 64]⟩
abbrev S3x2x64 : Shape := ⟨3, ![3, 2, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S2000000 : Shape := ⟨1, ![2000000]⟩
abbrev S500000 : Shape := ⟨1, ![500000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x2x64x64 : S_.BroadcastsInDim S3x2x64x64 (![] : Fin 0 → Fin S3x2x64x64.rank)
  reducesTo_S3x2x64x64_S_d0_1_2_3 : S3x2x64x64.ReducesTo [0, 1, 2, 3] S_
  bcast_S_S3x2x64 : S_.BroadcastsInDim S3x2x64 (![] : Fin 0 → Fin S3x2x64.rank)
  reducesTo_S3x2x64_S_d0_1_2 : S3x2x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S1x64 .f32) (main_arg10 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S3x2x64 .f32) (main_arg5 : FVec F S64x128 .f32) (main_arg6 : FVec F S64 .f32) (main_arg7 : FVec F S64x64 .f32) (main_arg8 : FVec F S64 .f32) (main_arg9 : FVec F S1x64 .f32) (main_arg10 : FVec F S1 .f32) (main_v13 : IVec S_ 1) (main_v16 : IVec S3x2x64x64 1) : IVec S_ 1 :=
  let main_c_5 : IVec S_ 1 := constantI S_ 1 1#1
  let main_v17 : IVec S_ 1 := (fun x v => Host.reduce IntOp.andi x v reducesTo_S3x2x64x64_S_d0_1_2_3 h_S_) main_v16 main_c_5
  let main_v18 : IVec S_ 1 := andi main_v13 main_v17
  let main_v19 : FVec F S3x2x64 .f32 := Host.absf main_arg4
  let main_cst_6 : FVec F S_ .f32 := constant S_ .f32 0x7F800000#32
  let main_v20 : FVec F S3x2x64 .f32 := broadcastInDim S3x2x64 ![] bcast_S_S3x2x64 main_cst_6
  let main_v21 : IVec S3x2x64 1 := cmpf .olt main_v19 main_v20
  let main_c_7 : IVec S_ 1 := constantI S_ 1 1#1
  let main_v22 : IVec S_ 1 := (fun x v => Host.reduce IntOp.andi x v reducesTo_S3x2x64_S_d0_1_2 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x64 .f32) (main_arg1 : FVec F S50000x64 .f32) (main_arg2 : FVec F S3x2x64x64 .f32) (main_arg3 : FVec F S3x2x64x64 .f32) (main_arg4 : FVec F S3x2x64 .f32) (main_arg5 : FVec F S64x128 .f32) (main_arg6 : FVec F S64 .f32) (main_arg7 : FVec F S64x64 .f32) (main_arg8 : FVec F S64 .f32) (main_arg9 : FVec F S1x64 .f32) (main_arg10 : FVec F S1 .f32) (main_arg11 : IVec S2000000 32) (main_arg12 : IVec S2000000 32) (main_arg13 : IVec S2000000 32) (main_arg14 : IVec S2000000 32) (main_arg15 : IVec S500000 32) (main_arg16 : IVec S500000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x2x64x64 .f32 := Host.absf main_arg2
  let main_cst_2 : FVec F S_ .f32 := constant S_ .f32 0x7F800000#32
  let main_v10 : FVec F S3x2x64x64 .f32 := broadcastInDim S3x2x64x64 ![] bcast_S_S3x2x64x64 main_cst_2
  let main_v11 : IVec S3x2x64x64 1 := cmpf .olt main_v9 main_v10
  let main_c_3 : IVec S_ 1 := constantI S_ 1 1#1
  let main_v12 : IVec S_ 1 := (fun x v => Host.reduce IntOp.andi x v reducesTo_S3x2x64x64_S_d0_1_2_3 h_S_) main_v11 main_c_3
  let main_v13 : IVec S_ 1 := andi main_v8 main_v12
  let main_v14 : FVec F S3x2x64x64 .f32 := Host.absf main_arg3
  let main_cst_4 : FVec F S_ .f32 := constant S_ .f32 0x7F800000#32
  let main_v15 : FVec F S3x2x64x64 .f32 := broadcastInDim S3x2x64x64 ![] bcast_S_S3x2x64x64 main_cst_4
  let main_v16 : IVec S3x2x64x64 1 := cmpf .olt main_v14 main_v15
  fn_part1 (F := F) main_arg4 main_arg5 main_arg6 main_arg7 main_arg8 main_arg9 main_arg10 main_v13 main_v16
-- ==== Kernel.lean ====
abbrev S200000x64 : Shape := ⟨2, ![200000, 64]⟩
abbrev S50000x64 : Shape := ⟨2, ![50000, 64]⟩
abbrev S3x2x64x64 : Shape := ⟨4, ![3, 2, 64, 64]⟩
abbrev S3x2x64 : Shape := ⟨3, ![3, 2, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S2000000 : Shape := ⟨1, ![2000000]⟩
abbrev S500000 : Shape := ⟨1, ![500000]⟩
abbrev S_ : Shape := ⟨0, ![]⟩
abbrev S2000000x1 : Shape := ⟨2, ![2000000, 1]⟩
abbrev S2000000x64 : Shape := ⟨2, ![2000000, 64]⟩
abbrev S50000 : Shape := ⟨1, ![50000]⟩
abbrev S50000x1 : Shape := ⟨2, ![50000, 1]⟩
abbrev S1x1x64x64 : Shape := ⟨4, ![1, 1, 64, 64]⟩
abbrev S1x1x64 : Shape := ⟨3, ![1, 1, 64]⟩
abbrev S10000x64 : Shape := ⟨2, ![10000, 64]⟩
abbrev S200000 : Shape := ⟨1, ![200000]⟩
abbrev S200000x1 : Shape := ⟨2, ![200000, 1]⟩
abbrev S500000x1 : Shape := ⟨2, ![500000, 1]⟩
abbrev S500000x64 : Shape := ⟨2, ![500000, 64]⟩
abbrev S500000x128 : Shape := ⟨2, ![500000, 128]⟩
abbrev S128x64 : Shape := ⟨2, ![128, 64]⟩
abbrev S64x1 : Shape := ⟨2, ![64, 1]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 244
  | .vmem => 64
  | .smem => 0
  | _ => 0

abbrev hbmTy0_0 (i : Nat) : BufTy := match i % 128 with
  | 0 => ⟨S200000x64, .f32⟩
  | 1 => ⟨S50000x64, .f32⟩
  | 2 => ⟨S3x2x64x64, .f32⟩
  | 3 => ⟨S3x2x64x64, .f32⟩
  | 4 => ⟨S3x2x64, .f32⟩
  | 5 => ⟨S64x128, .f32⟩
  | 6 => ⟨S64, .f32⟩
  | 7 => ⟨S64x64, .f32⟩
  | 8 => ⟨S64, .f32⟩
  | 9 => ⟨S1x64, .f32⟩
  | 10 => ⟨S1, .f32⟩
  | 11 => ⟨S2000000, .i32⟩
  | 12 => ⟨S2000000, .i32⟩
  | 13 => ⟨S2000000, .i32⟩
  | 14 => ⟨S2000000, .i32⟩
  | 15 => ⟨S500000, .i32⟩
  | 16 => ⟨S500000, .i32⟩
  | 17 => ⟨S3x2x64x64, .f32⟩
  | 18 => ⟨S3x2x64x64, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S_, .f32⟩
  | 29 => ⟨S50000x64, .f32⟩
  | 30 => ⟨S2000000x1, .i32⟩
  | 31 => ⟨S50000x64, .f32⟩
  | 32 => ⟨S_, .f32⟩
  | 33 => ⟨S2000000, .f32⟩
  | 34 => ⟨S_, .f32⟩
  | 35 => ⟨S50000, .f32⟩
  | 36 => ⟨S2000000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x64, .f32⟩
  | 43 => ⟨S50000x64, .f32⟩
  | 44 => ⟨S1x1x64x64, .f32⟩
  | 45 => ⟨S64x64, .f32⟩
  | 46 => ⟨S1x1x64, .f32⟩
  | 47 => ⟨S64, .f32⟩
  | 48 => ⟨S1x1x64x64, .f32⟩
  | 49 => ⟨S64x64, .f32⟩
  | 50 => ⟨S1x64, .f32⟩
  | 51 => ⟨S50000x64, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S_, .f32⟩
  | 62 => ⟨S200000x64, .f32⟩
  | 63 => ⟨S2000000x1, .i32⟩
  | 64 => ⟨S200000x64, .f32⟩
  | 65 => ⟨S_, .f32⟩
  | 66 => ⟨S2000000, .f32⟩
  | 67 => ⟨S_, .f32⟩
  | 68 => ⟨S200000, .f32⟩
  | 69 => ⟨S2000000x1, .i32⟩
  | 70 => ⟨S200000, .f32⟩
  | 71 => ⟨S_, .f32⟩
  | 72 => ⟨S200000, .f32⟩
  | 73 => ⟨S200000, .f32⟩
  | 74 => ⟨S200000x1, .f32⟩
  | 75 => ⟨S200000x64, .f32⟩
  | 76 => ⟨S200000x64, .f32⟩
  | 77 => ⟨S1x1x64x64, .f32⟩
  | 78 => ⟨S64x64, .f32⟩
  | 79 => ⟨S1x1x64, .f32⟩
  | 80 => ⟨S64, .f32⟩
  | 81 => ⟨S1x1x64x64, .f32⟩
  | 82 => ⟨S64x64, .f32⟩
  | 83 => ⟨S1x64, .f32⟩
  | 84 => ⟨S200000x64, .f32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2000000x64, .f32⟩
  | 94 => ⟨S_, .f32⟩
  | 95 => ⟨S50000x64, .f32⟩
  | 96 => ⟨S2000000x1, .i32⟩
  | 97 => ⟨S50000x64, .f32⟩
  | 98 => ⟨S_, .f32⟩
  | 99 => ⟨S2000000, .f32⟩
  | 100 => ⟨S_, .f32⟩
  | 101 => ⟨S50000, .f32⟩
  | 102 => ⟨S2000000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x64, .f32⟩
  | 109 => ⟨S50000x64, .f32⟩
  | 110 => ⟨S1x1x64x64, .f32⟩
  | 111 => ⟨S64x64, .f32⟩
  | 112 => ⟨S1x1x64, .f32⟩
  | 113 => ⟨S64, .f32⟩
  | 114 => ⟨S1x1x64x64, .f32⟩
  | 115 => ⟨S64x64, .f32⟩
  | 116 => ⟨S1x64, .f32⟩
  | 117 => ⟨S50000x64, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S_, .f32⟩
  | _ => ⟨S200000x64, .f32⟩

abbrev hbmTy0_1 (i : Nat) : BufTy := match i % 128 with
  | 0 => ⟨S200000x64, .f32⟩
  | 1 => ⟨S2000000x1, .i32⟩
  | 2 => ⟨S200000x64, .f32⟩
  | 3 => ⟨S_, .f32⟩
  | 4 => ⟨S2000000, .f32⟩
  | 5 => ⟨S_, .f32⟩
  | 6 => ⟨S200000, .f32⟩
  | 7 => ⟨S2000000x1, .i32⟩
  | 8 => ⟨S200000, .f32⟩
  | 9 => ⟨S_, .f32⟩
  | 10 => ⟨S200000, .f32⟩
  | 11 => ⟨S200000, .f32⟩
  | 12 => ⟨S200000x1, .f32⟩
  | 13 => ⟨S200000x64, .f32⟩
  | 14 => ⟨S200000x64, .f32⟩
  | 15 => ⟨S1x1x64x64, .f32⟩
  | 16 => ⟨S64x64, .f32⟩
  | 17 => ⟨S1x1x64, .f32⟩
  | 18 => ⟨S64, .f32⟩
  | 19 => ⟨S1x1x64x64, .f32⟩
  | 20 => ⟨S64x64, .f32⟩
  | 21 => ⟨S1x64, .f32⟩
  | 22 => ⟨S200000x64, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S_, .f32⟩
  | 33 => ⟨S50000x64, .f32⟩
  | 34 => ⟨S2000000x1, .i32⟩
  | 35 => ⟨S50000x64, .f32⟩
  | 36 => ⟨S_, .f32⟩
  | 37 => ⟨S2000000, .f32⟩
  | 38 => ⟨S_, .f32⟩
  | 39 => ⟨S50000, .f32⟩
  | 40 => ⟨S2000000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x64, .f32⟩
  | 47 => ⟨S50000x64, .f32⟩
  | 48 => ⟨S1x1x64x64, .f32⟩
  | 49 => ⟨S64x64, .f32⟩
  | 50 => ⟨S1x1x64, .f32⟩
  | 51 => ⟨S64, .f32⟩
  | 52 => ⟨S1x1x64x64, .f32⟩
  | 53 => ⟨S64x64, .f32⟩
  | 54 => ⟨S1x64, .f32⟩
  | 55 => ⟨S50000x64, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x64, .f32⟩
  | 65 => ⟨S_, .f32⟩
  | 66 => ⟨S200000x64, .f32⟩
  | 67 => ⟨S2000000x1, .i32⟩
  | 68 => ⟨S200000x64, .f32⟩
  | 69 => ⟨S_, .f32⟩
  | 70 => ⟨S2000000, .f32⟩
  | 71 => ⟨S_, .f32⟩
  | 72 => ⟨S200000, .f32⟩
  | 73 => ⟨S2000000x1, .i32⟩
  | 74 => ⟨S200000, .f32⟩
  | 75 => ⟨S_, .f32⟩
  | 76 => ⟨S200000, .f32⟩
  | 77 => ⟨S200000, .f32⟩
  | 78 => ⟨S200000x1, .f32⟩
  | 79 => ⟨S200000x64, .f32⟩
  | 80 => ⟨S200000x64, .f32⟩
  | 81 => ⟨S1x1x64x64, .f32⟩
  | 82 => ⟨S64x64, .f32⟩
  | 83 => ⟨S1x1x64, .f32⟩
  | 84 => ⟨S64, .f32⟩
  | 85 => ⟨S1x1x64x64, .f32⟩
  | 86 => ⟨S64x64, .f32⟩
  | 87 => ⟨S1x64, .f32⟩
  | 88 => ⟨S200000x64, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x64, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x64, .f32⟩
  | 107 => ⟨S500000x128, .f32⟩
  | 108 => ⟨S128x64, .f32⟩
  | 109 => ⟨S64x64, .f32⟩
  | 110 => ⟨S64x1, .f32⟩
  | 111 => ⟨S1x64, .f32⟩
  | 112 => ⟨S1x64, .f32⟩
  | 113 => ⟨S1x1, .f32⟩
  | 114 => ⟨S500000x1, .f32⟩
  | 115 => ⟨S500000, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S64x64, .f32⟩
  | .local _ .vmem, ⟨50, _⟩ => ⟨S1x64, .f32⟩
  | .local _ .vmem, ⟨51, _⟩ => ⟨S64x64, .f32⟩
  | .local _ .vmem, ⟨52, _⟩ => ⟨S10000x64, .f32⟩
  | .local _ .vmem, ⟨53, _⟩ => ⟨S10000x64, .f32⟩
  | .local _ .vmem, ⟨54, _⟩ => ⟨S10000x128, .f32⟩
  | .local _ .vmem, ⟨55, _⟩ => ⟨S10000x128, .f32⟩
  | .local _ .vmem, ⟨56, _⟩ => ⟨S128x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S10000x1, .f32⟩
  | .local _ .vmem, ⟨63, _⟩ => ⟨S10000x1, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_v84 : Ref sig .tc := ⟨.hbm, 120, rfl⟩
abbrev main_c_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_22 : Ref sig .tc := ⟨.hbm, 151, rfl⟩
abbrev main_v110 : Ref sig .tc := ⟨.hbm, 152, rfl⟩
abbrev main_v111 : Ref sig .tc := ⟨.hbm, 153, rfl⟩
abbrev main_c_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_24 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_v120 : Ref sig .tc := ⟨.hbm, 165, rfl⟩
abbrev main_cst_26 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_28 : Ref sig .tc := ⟨.hbm, 184, rfl⟩
abbrev main_v137 : Ref sig .tc := ⟨.hbm, 185, rfl⟩
abbrev main_v138 : Ref sig .tc := ⟨.hbm, 186, rfl⟩
abbrev main_c_29 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_30 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_31 : Ref sig .tc := ⟨.hbm, 197, rfl⟩
abbrev main_v147 : Ref sig .tc := ⟨.hbm, 198, rfl⟩
abbrev main_cst_32 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_33 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_34 : Ref sig .tc := ⟨.hbm, 217, rfl⟩
abbrev main_v164 : Ref sig .tc := ⟨.hbm, 218, rfl⟩
abbrev main_v165 : Ref sig .tc := ⟨.hbm, 219, rfl⟩
abbrev main_c_35 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_36 : Ref sig .tc := ⟨.hbm, 226, rfl⟩
abbrev main_v171 : Ref sig .tc := ⟨.hbm, 227, rfl⟩
abbrev main_v172 : Ref sig .tc := ⟨.hbm, 228, rfl⟩
abbrev main_c_37 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem7_1 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  transposes_S3x2x64x64_S3x2x64x64_0_1_3_2 : S3x2x64x64.Transposes [0, 1, 3, 2] S3x2x64x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x2x64x64_S1x1x64x64_0_0_0_0 : S3x2x64x64.Slices ![0, 0, 0, 0] S1x1x64x64
  shapeCasts_S1x1x64x64_S64x64 : S1x1x64x64.ShapeCasts S64x64
  slices_S3x2x64_S1x1x64_0_0_0 : S3x2x64.Slices ![0, 0, 0] S1x1x64
  shapeCasts_S1x1x64_S64 : S1x1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S3x2x64x64_S1x1x64x64_0_1_0_0 : S3x2x64x64.Slices ![0, 1, 0, 0] S1x1x64x64
  slices_S3x2x64_S1x1x64_0_1_0 : S3x2x64.Slices ![0, 1, 0] S1x1x64
  slices_S3x2x64x64_S1x1x64x64_1_0_0_0 : S3x2x64x64.Slices ![1, 0, 0, 0] S1x1x64x64
  slices_S3x2x64_S1x1x64_1_0_0 : S3x2x64.Slices ![1, 0, 0] S1x1x64
  slices_S3x2x64x64_S1x1x64x64_1_1_0_0 : S3x2x64x64.Slices ![1, 1, 0, 0] S1x1x64x64
  slices_S3x2x64_S1x1x64_1_1_0 : S3x2x64.Slices ![1, 1, 0] S1x1x64
  slices_S3x2x64x64_S1x1x64x64_2_0_0_0 : S3x2x64x64.Slices ![2, 0, 0, 0] S1x1x64x64
  slices_S3x2x64_S1x1x64_2_0_0 : S3x2x64.Slices ![2, 0, 0] S1x1x64
  slices_S3x2x64x64_S1x1x64x64_2_1_0_0 : S3x2x64x64.Slices ![2, 1, 0, 0] S1x1x64x64
  slices_S3x2x64_S1x1x64_2_1_0 : S3x2x64.Slices ![2, 1, 0] S1x1x64
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  transposes_S64x128_S128x64_1_0 : S64x128.Transposes [1, 0] S128x64
  transposes_S64x64_S64x64_1_0 : S64x64.Transposes [1, 0] S64x64
  transposes_S1x64_S64x1_1_0 : S1x64.Transposes [1, 0] S64x1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  gather_S200000x64_S2000000x1_S2000000x64_1_0_n_n_0_1_164_wf : GatherDims.WF S200000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S10000x64_S64x64_S10000x64_1_0_0_1_n_n_wf : DotDims.WF S10000x64 S64x64 S10000x64 [1] [0] [0] [1] [] []
  gather_S50000x64_S2000000x1_S2000000x64_1_0_n_n_0_1_164_wf : GatherDims.WF S50000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  gather_S200000x64_S500000x1_S500000x64_1_0_n_n_0_1_164_wf : GatherDims.WF S200000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .f32 = 32 ∨ (Rect.block (s := S200000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S200000x64.size a
  hwx1_5 : ∀ i : grid1.Coords, EltTy.bits .f32 = 32 ∨ (Rect.block (s := S200000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S200000x64.size a
  hwx3_5 : ∀ i : grid3.Coords, EltTy.bits .f32 = 32 ∨ (Rect.block (s := S200000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S200000x64.size a
  hwx5_0 : ∀ i : grid5.Coords, EltTy.bits .f32 = 32 ∨ (Rect.block (s := S200000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S200000x64.size a
  hwx5_1 : ∀ i : grid5.Coords, EltTy.bits .f32 = 32 ∨ (Rect.block (s := S200000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S200000x64.size a
  hwx5_5 : ∀ i : grid5.Coords, EltTy.bits .f32 = 32 ∨ (Rect.block (s := S200000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S500000x128.size a
  hwx6_0 : ∀ i : grid6.Coords, EltTy.bits .f32 = 32 ∨ (Rect.block (s := S500000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x1.size a ≤ S500000x1.size a
  hwx6_7 : ∀ i : grid6.Coords, EltTy.bits .f32 = 32 ∨ (Rect.block (s := S500000x1) S10000x1.size (cc6_transform_7 i) (hinb6_7 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v20) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v101) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v103) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v108) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v107) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v109) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v128) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v130) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v135) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v134) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v136) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v155) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v157) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v162) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v161) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v163) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v178) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v179) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v182) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v180) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v183) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v181) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v184) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v185) S10000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S3x2x64x64 : Shape := ⟨4, ![3, 2, 64, 64]⟩
abbrev S3x2x64 : Shape := ⟨3, ![3, 2, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S2000000 : Shape := ⟨1, ![2000000]⟩
abbrev S500000 : Shape := ⟨1, ![500000]⟩
abbrev S1x1x64x64 : Shape := ⟨4, ![1, 1, 64, 64]⟩
abbrev S1x1x64 : Shape := ⟨3, ![1, 1, 64]⟩
abbrev S_ : Shape := ⟨0, ![]⟩
abbrev S2000000x1 : Shape := ⟨2, ![2000000, 1]⟩
abbrev S2000000x64 : Shape := ⟨2, ![2000000, 64]⟩
abbrev S50000 : Shape := ⟨1, ![50000]⟩
abbrev S50000x1 : Shape := ⟨2, ![50000, 1]⟩
abbrev S200000 : Shape := ⟨1, ![200000]⟩
abbrev S200000x1 : Shape := ⟨2, ![200000, 1]⟩
abbrev S500000x1 : Shape := ⟨2, ![500000, 1]⟩
abbrev S500000x64 : Shape := ⟨2, ![500000, 64]⟩
abbrev S500000x128 : Shape := ⟨2, ![500000, 128]⟩
abbrev S128x64 : Shape := ⟨2, ![128, 64]⟩
abbrev S64x1 : Shape := ⟨2, ![64, 1]⟩
abbrev S1x1 : Shape := ⟨2, ![1, 1]⟩

abbrev nBuf : Space → Nat
  | .hbm => 304
  | .vmem => 0
  | .smem => 0
  | _ => 0

abbrev hbmTy0_0 (i : Nat) : BufTy := match i % 128 with
  | 0 => ⟨S200000x64, .f32⟩
  | 1 => ⟨S50000x64, .f32⟩
  | 2 => ⟨S3x2x64x64, .f32⟩
  | 3 => ⟨S3x2x64x64, .f32⟩
  | 4 => ⟨S3x2x64, .f32⟩
  | 5 => ⟨S64x128, .f32⟩
  | 6 => ⟨S64, .f32⟩
  | 7 => ⟨S64x64, .f32⟩
  | 8 => ⟨S64, .f32⟩
  | 9 => ⟨S1x64, .f32⟩
  | 10 => ⟨S1, .f32⟩
  | 11 => ⟨S2000000, .i32⟩
  | 12 => ⟨S2000000, .i32⟩
  | 13 => ⟨S2000000, .i32⟩
  | 14 => ⟨S2000000, .i32⟩
  | 15 => ⟨S500000, .i32⟩
  | 16 => ⟨S500000, .i32⟩
  | 17 => ⟨S1x1x64x64, .f32⟩
  | 18 => ⟨S64x64, .f32⟩
  | 19 => ⟨S1x1x64, .f32⟩
  | 20 => ⟨S64, .f32⟩
  | 21 => ⟨S1x1x64x64, .f32⟩
  | 22 => ⟨S64x64, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S_, .f32⟩
  | 33 => ⟨S50000x64, .f32⟩
  | 34 => ⟨S2000000x1, .i32⟩
  | 35 => ⟨S50000x64, .f32⟩
  | 36 => ⟨S_, .f32⟩
  | 37 => ⟨S2000000, .f32⟩
  | 38 => ⟨S_, .f32⟩
  | 39 => ⟨S50000, .f32⟩
  | 40 => ⟨S2000000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x64, .f32⟩
  | 47 => ⟨S50000x64, .f32⟩
  | 48 => ⟨S64x64, .f32⟩
  | 49 => ⟨S50000x64, .f32⟩
  | 50 => ⟨S1x64, .f32⟩
  | 51 => ⟨S50000x64, .f32⟩
  | 52 => ⟨S50000x64, .f32⟩
  | 53 => ⟨S64x64, .f32⟩
  | 54 => ⟨S50000x64, .f32⟩
  | 55 => ⟨S50000x64, .f32⟩
  | 56 => ⟨S1x1x64x64, .f32⟩
  | 57 => ⟨S64x64, .f32⟩
  | 58 => ⟨S1x1x64, .f32⟩
  | 59 => ⟨S64, .f32⟩
  | 60 => ⟨S1x1x64x64, .f32⟩
  | 61 => ⟨S64x64, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x64, .f32⟩
  | 71 => ⟨S_, .f32⟩
  | 72 => ⟨S200000x64, .f32⟩
  | 73 => ⟨S2000000x1, .i32⟩
  | 74 => ⟨S200000x64, .f32⟩
  | 75 => ⟨S_, .f32⟩
  | 76 => ⟨S2000000, .f32⟩
  | 77 => ⟨S_, .f32⟩
  | 78 => ⟨S200000, .f32⟩
  | 79 => ⟨S2000000x1, .i32⟩
  | 80 => ⟨S200000, .f32⟩
  | 81 => ⟨S_, .f32⟩
  | 82 => ⟨S200000, .f32⟩
  | 83 => ⟨S200000, .f32⟩
  | 84 => ⟨S200000x1, .f32⟩
  | 85 => ⟨S200000x64, .f32⟩
  | 86 => ⟨S200000x64, .f32⟩
  | 87 => ⟨S64x64, .f32⟩
  | 88 => ⟨S200000x64, .f32⟩
  | 89 => ⟨S1x64, .f32⟩
  | 90 => ⟨S200000x64, .f32⟩
  | 91 => ⟨S200000x64, .f32⟩
  | 92 => ⟨S64x64, .f32⟩
  | 93 => ⟨S200000x64, .f32⟩
  | 94 => ⟨S200000x64, .f32⟩
  | 95 => ⟨S_, .f32⟩
  | 96 => ⟨S50000x64, .f32⟩
  | 97 => ⟨S50000x64, .f32⟩
  | 98 => ⟨S_, .f32⟩
  | 99 => ⟨S200000x64, .f32⟩
  | 100 => ⟨S200000x64, .f32⟩
  | 101 => ⟨S1x1x64x64, .f32⟩
  | 102 => ⟨S64x64, .f32⟩
  | 103 => ⟨S1x1x64, .f32⟩
  | 104 => ⟨S64, .f32⟩
  | 105 => ⟨S1x1x64x64, .f32⟩
  | 106 => ⟨S64x64, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000x64, .f32⟩
  | 116 => ⟨S_, .f32⟩
  | 117 => ⟨S50000x64, .f32⟩
  | 118 => ⟨S2000000x1, .i32⟩
  | 119 => ⟨S50000x64, .f32⟩
  | 120 => ⟨S_, .f32⟩
  | 121 => ⟨S2000000, .f32⟩
  | 122 => ⟨S_, .f32⟩
  | 123 => ⟨S50000, .f32⟩
  | 124 => ⟨S2000000x1, .i32⟩
  | 125 => ⟨S50000, .f32⟩
  | 126 => ⟨S_, .f32⟩
  | 127 => ⟨S50000, .f32⟩
  | _ => ⟨S200000x64, .f32⟩

abbrev hbmTy0_1 (i : Nat) : BufTy := match i % 128 with
  | 0 => ⟨S50000, .f32⟩
  | 1 => ⟨S50000x1, .f32⟩
  | 2 => ⟨S50000x64, .f32⟩
  | 3 => ⟨S50000x64, .f32⟩
  | 4 => ⟨S64x64, .f32⟩
  | 5 => ⟨S50000x64, .f32⟩
  | 6 => ⟨S1x64, .f32⟩
  | 7 => ⟨S50000x64, .f32⟩
  | 8 => ⟨S50000x64, .f32⟩
  | 9 => ⟨S64x64, .f32⟩
  | 10 => ⟨S50000x64, .f32⟩
  | 11 => ⟨S50000x64, .f32⟩
  | 12 => ⟨S1x1x64x64, .f32⟩
  | 13 => ⟨S64x64, .f32⟩
  | 14 => ⟨S1x1x64, .f32⟩
  | 15 => ⟨S64, .f32⟩
  | 16 => ⟨S1x1x64x64, .f32⟩
  | 17 => ⟨S64x64, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S_, .f32⟩
  | 28 => ⟨S200000x64, .f32⟩
  | 29 => ⟨S2000000x1, .i32⟩
  | 30 => ⟨S200000x64, .f32⟩
  | 31 => ⟨S_, .f32⟩
  | 32 => ⟨S2000000, .f32⟩
  | 33 => ⟨S_, .f32⟩
  | 34 => ⟨S200000, .f32⟩
  | 35 => ⟨S2000000x1, .i32⟩
  | 36 => ⟨S200000, .f32⟩
  | 37 => ⟨S_, .f32⟩
  | 38 => ⟨S200000, .f32⟩
  | 39 => ⟨S200000, .f32⟩
  | 40 => ⟨S200000x1, .f32⟩
  | 41 => ⟨S200000x64, .f32⟩
  | 42 => ⟨S200000x64, .f32⟩
  | 43 => ⟨S64x64, .f32⟩
  | 44 => ⟨S200000x64, .f32⟩
  | 45 => ⟨S1x64, .f32⟩
  | 46 => ⟨S200000x64, .f32⟩
  | 47 => ⟨S200000x64, .f32⟩
  | 48 => ⟨S64x64, .f32⟩
  | 49 => ⟨S200000x64, .f32⟩
  | 50 => ⟨S200000x64, .f32⟩
  | 51 => ⟨S_, .f32⟩
  | 52 => ⟨S50000x64, .f32⟩
  | 53 => ⟨S50000x64, .f32⟩
  | 54 => ⟨S_, .f32⟩
  | 55 => ⟨S200000x64, .f32⟩
  | 56 => ⟨S200000x64, .f32⟩
  | 57 => ⟨S1x1x64x64, .f32⟩
  | 58 => ⟨S64x64, .f32⟩
  | 59 => ⟨S1x1x64, .f32⟩
  | 60 => ⟨S64, .f32⟩
  | 61 => ⟨S1x1x64x64, .f32⟩
  | 62 => ⟨S64x64, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x64, .f32⟩
  | 72 => ⟨S_, .f32⟩
  | 73 => ⟨S50000x64, .f32⟩
  | 74 => ⟨S2000000x1, .i32⟩
  | 75 => ⟨S50000x64, .f32⟩
  | 76 => ⟨S_, .f32⟩
  | 77 => ⟨S2000000, .f32⟩
  | 78 => ⟨S_, .f32⟩
  | 79 => ⟨S50000, .f32⟩
  | 80 => ⟨S2000000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x64, .f32⟩
  | 87 => ⟨S50000x64, .f32⟩
  | 88 => ⟨S64x64, .f32⟩
  | 89 => ⟨S50000x64, .f32⟩
  | 90 => ⟨S1x64, .f32⟩
  | 91 => ⟨S50000x64, .f32⟩
  | 92 => ⟨S50000x64, .f32⟩
  | 93 => ⟨S64x64, .f32⟩
  | 94 => ⟨S50000x64, .f32⟩
  | 95 => ⟨S50000x64, .f32⟩
  | 96 => ⟨S1x1x64x64, .f32⟩
  | 97 => ⟨S64x64, .f32⟩
  | 98 => ⟨S1x1x64, .f32⟩
  | 99 => ⟨S64, .f32⟩
  | 100 => ⟨S1x1x64x64, .f32⟩
  | 101 => ⟨S64x64, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x64, .f32⟩
  | 111 => ⟨S_, .f32⟩
  | 112 => ⟨S200000x64, .f32⟩
  | 113 => ⟨S2000000x1, .i32⟩
  | 114 => ⟨S200000x64, .f32⟩
  | 115 => ⟨S_, .f32⟩
  | 116 => ⟨S2000000, .f32⟩
  | 117 => ⟨S_, .f32⟩
  | 118 => ⟨S200000, .f32⟩
  | 119 => ⟨S2000000x1, .i32⟩
  | 120 => ⟨S200000, .f32⟩
  | 121 => ⟨S_, .f32⟩
  | 122 => ⟨S200000, .f32⟩
  | 123 => ⟨S200000, .f32⟩
  | 124 => ⟨S200000x1, .f32⟩
  | 125 => ⟨S200000x64, .f32⟩
  | 126 => ⟨S200000x64, .f32⟩
  | 127 => ⟨S64x64, .f32⟩
  | _ => ⟨S200000x64, .f32⟩

abbrev hbmTy0_2 (i : Nat) : BufTy := match i % 128 with
  | 0 => ⟨S200000x64, .f32⟩
  | 1 => ⟨S1x64, .f32⟩
  | 2 => ⟨S200000x64, .f32⟩
  | 3 => ⟨S200000x64, .f32⟩
  | 4 => ⟨S64x64, .f32⟩
  | 5 => ⟨S200000x64, .f32⟩
  | 6 => ⟨S200000x64, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x64, .f32⟩
  | 25 => ⟨S500000x128, .f32⟩
  | 26 => ⟨S128x64, .f32⟩
  | 27 => ⟨S500000x64, .f32⟩
  | 28 => ⟨S1x64, .f32⟩
  | 29 => ⟨S500000x64, .f32⟩
  | 30 => ⟨S500000x64, .f32⟩
  | 31 => ⟨S_, .f32⟩
  | 32 => ⟨S500000x64, .f32⟩
  | 33 => ⟨S500000x64, .f32⟩
  | 34 => ⟨S64x64, .f32⟩
  | 35 => ⟨S500000x64, .f32⟩
  | 36 => ⟨S1x64, .f32⟩
  | 37 => ⟨S500000x64, .f32⟩
  | 38 => ⟨S500000x64, .f32⟩
  | 39 => ⟨S_, .f32⟩
  | 40 => ⟨S500000x64, .f32⟩
  | 41 => ⟨S500000x64, .f32⟩
  | 42 => ⟨S64x1, .f32⟩
  | 43 => ⟨S500000x1, .f32⟩
  | 44 => ⟨S1x1, .f32⟩
  | 45 => ⟨S500000x1, .f32⟩
  | 46 => ⟨S500000x1, .f32⟩
  | 47 => ⟨S500000, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call0_cst : Ref sig .tc := ⟨.hbm, 95, rfl⟩
abbrev main_call0_v0 : Ref sig .tc := ⟨.hbm, 96, rfl⟩
abbrev main_v66 : Ref sig .tc := ⟨.hbm, 97, rfl⟩
abbrev main_call1_cst : Ref sig .tc := ⟨.hbm, 98, rfl⟩
abbrev main_call1_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_10 : Ref sig .tc := ⟨.hbm, 107, rfl⟩
abbrev main_v74 : Ref sig .tc := ⟨.hbm, 108, rfl⟩
abbrev main_v75 : Ref sig .tc := ⟨.hbm, 109, rfl⟩
abbrev main_c_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_15 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_16 : Ref sig .tc := ⟨.hbm, 146, rfl⟩
abbrev main_v107 : Ref sig .tc := ⟨.hbm, 147, rfl⟩
abbrev main_v108 : Ref sig .tc := ⟨.hbm, 148, rfl⟩
abbrev main_c_17 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_18 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_19 : Ref sig .tc := ⟨.hbm, 159, rfl⟩
abbrev main_v117 : Ref sig .tc := ⟨.hbm, 160, rfl⟩
abbrev main_cst_20 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_21 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call2_cst : Ref sig .tc := ⟨.hbm, 179, rfl⟩
abbrev main_call2_v0 : Ref sig .tc := ⟨.hbm, 180, rfl⟩
abbrev main_v134 : Ref sig .tc := ⟨.hbm, 181, rfl⟩
abbrev main_call3_cst : Ref sig .tc := ⟨.hbm, 182, rfl⟩
abbrev main_call3_v0 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_22 : Ref sig .tc := ⟨.hbm, 191, rfl⟩
abbrev main_v142 : Ref sig .tc := ⟨.hbm, 192, rfl⟩
abbrev main_v143 : Ref sig .tc := ⟨.hbm, 193, rfl⟩
abbrev main_c_23 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_24 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_25 : Ref sig .tc := ⟨.hbm, 204, rfl⟩
abbrev main_v152 : Ref sig .tc := ⟨.hbm, 205, rfl⟩
abbrev main_cst_26 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_27 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_c_28 : Ref sig .tc := ⟨.hbm, 230, rfl⟩
abbrev main_v175 : Ref sig .tc := ⟨.hbm, 231, rfl⟩
abbrev main_v176 : Ref sig .tc := ⟨.hbm, 232, rfl⟩
abbrev main_c_29 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_30 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_31 : Ref sig .tc := ⟨.hbm, 243, rfl⟩
abbrev main_v185 : Ref sig .tc := ⟨.hbm, 244, rfl⟩
abbrev main_cst_32 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_33 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_c_34 : Ref sig .tc := ⟨.hbm, 263, rfl⟩
abbrev main_v202 : Ref sig .tc := ⟨.hbm, 264, rfl⟩
abbrev main_v203 : Ref sig .tc := ⟨.hbm, 265, rfl⟩
abbrev main_c_35 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_c_36 : Ref sig .tc := ⟨.hbm, 272, rfl⟩
abbrev main_v209 : Ref sig .tc := ⟨.hbm, 273, rfl⟩
abbrev main_v210 : Ref sig .tc := ⟨.hbm, 274, rfl⟩
abbrev main_c_37 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_call4_cst : Ref sig .tc := ⟨.hbm, 287, rfl⟩
abbrev main_call4_v0 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_call5_cst : Ref sig .tc := ⟨.hbm, 295, rfl⟩
abbrev main_call5_v0 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩

abbrev nD : Nat := 1
abbrev τ : Topo := Topo.v7x

variable {F : FTy → Type} [FloatOps F]

class Facts₀ : Prop where
  slices_S3x2x64x64_S1x1x64x64_0_0_0_0 : S3x2x64x64.Slices ![0, 0, 0, 0] S1x1x64x64
  shapeCasts_S1x1x64x64_S64x64 : S1x1x64x64.ShapeCasts S64x64
  slices_S3x2x64_S1x1x64_0_0_0 : S3x2x64.Slices ![0, 0, 0] S1x1x64
  shapeCasts_S1x1x64_S64 : S1x1x64.ShapeCasts S64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x2x64x64_S1x1x64x64_0_1_0_0 : S3x2x64x64.Slices ![0, 1, 0, 0] S1x1x64x64
  slices_S3x2x64_S1x1x64_0_1_0 : S3x2x64.Slices ![0, 1, 0] S1x1x64
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  slices_S3x2x64x64_S1x1x64x64_1_0_0_0 : S3x2x64x64.Slices ![1, 0, 0, 0] S1x1x64x64
  slices_S3x2x64_S1x1x64_1_0_0 : S3x2x64.Slices ![1, 0, 0] S1x1x64
  slices_S3x2x64x64_S1x1x64x64_1_1_0_0 : S3x2x64x64.Slices ![1, 1, 0, 0] S1x1x64x64
  slices_S3x2x64_S1x1x64_1_1_0 : S3x2x64.Slices ![1, 1, 0] S1x1x64
  slices_S3x2x64x64_S1x1x64x64_2_0_0_0 : S3x2x64x64.Slices ![2, 0, 0, 0] S1x1x64x64
  slices_S3x2x64_S1x1x64_2_0_0 : S3x2x64.Slices ![2, 0, 0] S1x1x64
  slices_S3x2x64x64_S1x1x64x64_2_1_0_0 : S3x2x64x64.Slices ![2, 1, 0, 0] S1x1x64x64
  slices_S3x2x64_S1x1x64_2_1_0 : S3x2x64.Slices ![2, 1, 0] S1x1x64
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  transposes_S64x128_S128x64_1_0 : S64x128.Transposes [1, 0] S128x64
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S200000x64_S2000000x1_S2000000x64_1_0_n_n_0_1_164_wf : GatherDims.WF S200000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  gather_S50000x64_S2000000x1_S2000000x64_1_0_n_n_0_1_164_wf : GatherDims.WF S50000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  dot_S200000x64_S64x64_S200000x64_1_0_0_1_n_n_wf : DotDims.WF S200000x64 S64x64 S200000x64 [1] [0] [0] [1] [] []
  gather_S200000x64_S500000x1_S500000x64_1_0_n_n_0_1_164_wf : GatherDims.WF S200000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x64_S500000x64_1_0_0_1_n_n_wf : DotDims.WF S500000x64 S64x64 S500000x64 [1] [0] [0] [1] [] []
  dot_S500000x64_S64x1_S500000x1_1_0_0_1_n_n_wf : DotDims.WF S500000x64 S64x1 S500000x1 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The idealized kernel program's run with every buffer named.

  The program is seven kernel regions among eight stretches of host operations. Its generated frame certificate already
  computes, segment by segment, what every buffer holds at each boundary (a fold from the launch memory), and states of
  the final state only that the arguments are unchanged. Here the same run is read once more, keeping for every buffer
  that outlives the program its contents at the last boundary; the result buffer's contents are then a value that the
  other modules open.
-/
import proofs.«162854_j13142599925848_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final state every buffer that is not scoped to a
    region holds what the fold through the program leaves in it at the last boundary. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The run with the result buffer at its contents after the last stretch of host operations, the arguments unchanged. -/
theorem run_result : θ_run defs (onTc (τ := τ) (main (F := F))) ⟨m, fun _ => 0, ρ⟩ (fun r => ∀ c : Dev nD,
      r.2.mem ((c.tc : Thread nD τ).loc main_v186) = W15 m ρ c (Proc.devRef .tc main_v186)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v186 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c)⟩)
    (run_named m ρ)

end Cert.KernelIdeal.RunAll

end
-- ==== Proof.Carry.lean ====
/-
  What outlives a stretch of host operations or a kernel region.

  The program's buffers are followed from boundary to boundary: a stretch of host operations changes only the buffers its
  operations write, and a kernel region changes only its output array. So an argument array, the two transposed weight
  stacks made once at the start, and each layer's result array hold the same contents at every later boundary where they
  are read. Each fact below is one such buffer at one such boundary.
-/
import proofs.«162854_j13142599925848_1_alg».proof.Proof.Gen.KernelIdeal.Frame

set_option maxRecDepth 16384

noncomputable section

namespace Cert.KernelIdeal.Carry

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The buffers stretch 0's operations write. -/
def written0 : List (Ref sig .tc) := [main_v0, main_v1, main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_v20, main_v21, main_v22, main_v23, main_v24, main_v25, main_v26, main_v27]

theorem writes0 : (hostOps0 : List (HloOp τ sig (Elt F))).Forall fun op => op.writes ⊆ (written0.map (Proc.devRef (τ := τ) .tc)).toFinset := by
  simp only [hostOps0, written0, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 0 does not write keeps its contents through it. -/
theorem keep0 (W : Valuation τ sig (Elt F)) {r : Ref sig .tc} (hr : r ∉ written0) :
    StableHlo.after hostOps0 W (Proc.devRef .tc r) = W (Proc.devRef .tc r) :=
  StableHlo.after_of_writes_sub hostOps0 W writes0 hr

/-- A buffer neither stretch 0 nor region 0 touches keeps its contents through both. -/
theorem step0 (c : Dev nD) {r : Ref sig .tc} (h1 : r ∉ written0) (h2 : ∀ w, Pipeline.arrRef spec0 w ≠ r) :
    W2 m ρ c (Proc.devRef .tc r) = W0 m ρ c (Proc.devRef .tc r) :=
  (W2_of_ne m ρ c r h2).trans (keep0 (W0 m ρ c) h1)

/-- The buffers stretch 1's operations write. -/
def written1 : List (Ref sig .tc) := [main_c_4, main_v29, main_v30, main_c_5, main_v31, main_v32, main_v33, main_v34, main_v35, main_cst_6, main_v36, main_v37, main_v38, main_cst_7, main_v39, main_cst_8, main_v40, main_v41, main_v42, main_cst_9, main_v43, main_v44, main_v45, main_v46, main_v47, main_v48, main_v49, main_v50, main_v51, main_v52, main_v53, main_v54]

theorem writes1 : (hostOps1 : List (HloOp τ sig (Elt F))).Forall fun op => op.writes ⊆ (written1.map (Proc.devRef (τ := τ) .tc)).toFinset := by
  simp only [hostOps1, written1, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 1 does not write keeps its contents through it. -/
theorem keep1 (W : Valuation τ sig (Elt F)) {r : Ref sig .tc} (hr : r ∉ written1) :
    StableHlo.after hostOps1 W (Proc.devRef .tc r) = W (Proc.devRef .tc r) :=
  StableHlo.after_of_writes_sub hostOps1 W writes1 hr

/-- A buffer neither stretch 1 nor region 1 touches keeps its contents through both. -/
theorem step1 (c : Dev nD) {r : Ref sig .tc} (h1 : r ∉ written1) (h2 : ∀ w, Pipeline.arrRef spec1 w ≠ r) :
    W4 m ρ c (Proc.devRef .tc r) = W2 m ρ c (Proc.devRef .tc r) :=
  (W4_of_ne m ρ c r h2).trans (keep1 (W2 m ρ c) h1)

/-- The buffers stretch 2's operations write. -/
def written2 : List (Ref sig .tc) := [main_c_10, main_v56, main_v57, main_c_11, main_v58, main_v59, main_v60, main_v61, main_v62, main_cst_12, main_v63, main_v64, main_v65, main_cst_13, main_v66, main_cst_14, main_v67, main_v68, main_v69, main_cst_15, main_v70, main_v71, main_v72, main_v73, main_v74, main_v75, main_v76, main_v77, main_v78, main_v79, main_v80, main_v81]

theorem writes2 : (hostOps2 : List (HloOp τ sig (Elt F))).Forall fun op => op.writes ⊆ (written2.map (Proc.devRef (τ := τ) .tc)).toFinset := by
  simp only [hostOps2, written2, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 2 does not write keeps its contents through it. -/
theorem keep2 (W : Valuation τ sig (Elt F)) {r : Ref sig .tc} (hr : r ∉ written2) :
    StableHlo.after hostOps2 W (Proc.devRef .tc r) = W (Proc.devRef .tc r) :=
  StableHlo.after_of_writes_sub hostOps2 W writes2 hr

/-- A buffer neither stretch 2 nor region 2 touches keeps its contents through both. -/
theorem step2 (c : Dev nD) {r : Ref sig .tc} (h1 : r ∉ written2) (h2 : ∀ w, Pipeline.arrRef spec2 w ≠ r) :
    W6 m ρ c (Proc.devRef .tc r) = W4 m ρ c (Proc.devRef .tc r) :=
  (W6_of_ne m ρ c r h2).trans (keep2 (W4 m ρ c) h1)

/-- The buffers stretch 3's operations write. -/
def written3 : List (Ref sig .tc) := [main_c_16, main_v83, main_v84, main_c_17, main_v85, main_v86, main_v87, main_v88, main_v89, main_cst_18, main_v90, main_v91, main_v92, main_cst_19, main_v93, main_cst_20, main_v94, main_v95, main_v96, main_cst_21, main_v97, main_v98, main_v99, main_v100, main_v101, main_v102, main_v103, main_v104, main_v105, main_v106, main_v107, main_v108]

theorem writes3 : (hostOps3 : List (HloOp τ sig (Elt F))).Forall fun op => op.writes ⊆ (written3.map (Proc.devRef (τ := τ) .tc)).toFinset := by
  simp only [hostOps3, written3, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 3 does not write keeps its contents through it. -/
theorem keep3 (W : Valuation τ sig (Elt F)) {r : Ref sig .tc} (hr : r ∉ written3) :
    StableHlo.after hostOps3 W (Proc.devRef .tc r) = W (Proc.devRef .tc r) :=
  StableHlo.after_of_writes_sub hostOps3 W writes3 hr

/-- A buffer neither stretch 3 nor region 3 touches keeps its contents through both. -/
theorem step3 (c : Dev nD) {r : Ref sig .tc} (h1 : r ∉ written3) (h2 : ∀ w, Pipeline.arrRef spec3 w ≠ r) :
    W8 m ρ c (Proc.devRef .tc r) = W6 m ρ c (Proc.devRef .tc r) :=
  (W8_of_ne m ρ c r h2).trans (keep3 (W6 m ρ c) h1)

/-- The buffers stretch 4's operations write. -/
def written4 : List (Ref sig .tc) := [main_c_22, main_v110, main_v111, main_c_23, main_v112, main_v113, main_v114, main_v115, main_v116, main_cst_24, main_v117, main_v118, main_v119, main_cst_25, main_v120, main_cst_26, main_v121, main_v122, main_v123, main_cst_27, main_v124, main_v125, main_v126, main_v127, main_v128, main_v129, main_v130, main_v131, main_v132, main_v133, main_v134, main_v135]

theorem writes4 : (hostOps4 : List (HloOp τ sig (Elt F))).Forall fun op => op.writes ⊆ (written4.map (Proc.devRef (τ := τ) .tc)).toFinset := by
  simp only [hostOps4, written4, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 4 does not write keeps its contents through it. -/
theorem keep4 (W : Valuation τ sig (Elt F)) {r : Ref sig .tc} (hr : r ∉ written4) :
    StableHlo.after hostOps4 W (Proc.devRef .tc r) = W (Proc.devRef .tc r) :=
  StableHlo.after_of_writes_sub hostOps4 W writes4 hr

/-- A buffer neither stretch 4 nor region 4 touches keeps its contents through both. -/
theorem step4 (c : Dev nD) {r : Ref sig .tc} (h1 : r ∉ written4) (h2 : ∀ w, Pipeline.arrRef spec4 w ≠ r) :
    W10 m ρ c (Proc.devRef .tc r) = W8 m ρ c (Proc.devRef .tc r) :=
  (W10_of_ne m ρ c r h2).trans (keep4 (W8 m ρ c) h1)

/-- The buffers stretch 5's operations write. -/
def written5 : List (Ref sig .tc) := [main_c_28, main_v137, main_v138, main_c_29, main_v139, main_v140, main_v141, main_v142, main_v143, main_cst_30, main_v144, main_v145, main_v146, main_cst_31, main_v147, main_cst_32, main_v148, main_v149, main_v150, main_cst_33, main_v151, main_v152, main_v153, main_v154, main_v155, main_v156, main_v157, main_v158, main_v159, main_v160, main_v161, main_v162]

theorem writes5 : (hostOps5 : List (HloOp τ sig (Elt F))).Forall fun op => op.writes ⊆ (written5.map (Proc.devRef (τ := τ) .tc)).toFinset := by
  simp only [hostOps5, written5, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 5 does not write keeps its contents through it. -/
theorem keep5 (W : Valuation τ sig (Elt F)) {r : Ref sig .tc} (hr : r ∉ written5) :
    StableHlo.after hostOps5 W (Proc.devRef .tc r) = W (Proc.devRef .tc r) :=
  StableHlo.after_of_writes_sub hostOps5 W writes5 hr

/-- A buffer neither stretch 5 nor region 5 touches keeps its contents through both. -/
theorem step5 (c : Dev nD) {r : Ref sig .tc} (h1 : r ∉ written5) (h2 : ∀ w, Pipeline.arrRef spec5 w ≠ r) :
    W12 m ρ c (Proc.devRef .tc r) = W10 m ρ c (Proc.devRef .tc r) :=
  (W12_of_ne m ρ c r h2).trans (keep5 (W10 m ρ c) h1)

/-- The buffers stretch 6's operations write. -/
def written6 : List (Ref sig .tc) := [main_c_34, main_v164, main_v165, main_c_35, main_v166, main_v167, main_v168, main_v169, main_v170, main_c_36, main_v171, main_v172, main_c_37, main_v173, main_v174, main_v175, main_v176, main_v177, main_v178, main_v179, main_v180, main_v181, main_v182, main_v183, main_v184]

theorem writes6 : (hostOps6 : List (HloOp τ sig (Elt F))).Forall fun op => op.writes ⊆ (written6.map (Proc.devRef (τ := τ) .tc)).toFinset := by
  simp only [hostOps6, written6, List.Forall, StableHlo.nullary_writes, StableHlo.unary_writes, StableHlo.binary_writes, StableHlo.ternary_writes, StableHlo.quaternary_writes, StableHlo.reshape_writes, Finset.singleton_subset_iff, List.mem_toFinset, List.map_cons, List.map_nil, List.mem_cons, true_or, or_true, and_self]

/-- A buffer stretch 6 does not write keeps its contents through it. -/
theorem keep6 (W : Valuation τ sig (Elt F)) {r : Ref sig .tc} (hr : r ∉ written6) :
    StableHlo.after hostOps6 W (Proc.devRef .tc r) = W (Proc.devRef .tc r) :=
  StableHlo.after_of_writes_sub hostOps6 W writes6 hr

/-- A buffer neither stretch 6 nor region 6 touches keeps its contents through both. -/
theorem step6 (c : Dev nD) {r : Ref sig .tc} (h1 : r ∉ written6) (h2 : ∀ w, Pipeline.arrRef spec6 w ≠ r) :
    W14 m ρ c (Proc.devRef .tc r) = W12 m ρ c (Proc.devRef .tc r) :=
  (W14_of_ne m ρ c r h2).trans (keep6 (W12 m ρ c) h1)

/-- Region 0 only reads its second window's array. -/
theorem step0_in (c : Dev nD) : W2 m ρ c (Proc.devRef .tc main_arg1) = W0 m ρ c (Proc.devRef .tc main_arg1) :=
  ((W2_arr m ρ c 1).trans (((dat0 (V1 m ρ) c).arrAt_in 1 rfl _).trans (A_eq0 (V1 m ρ) c 1))).trans (keep0 (W0 m ρ c) (by decide))

/-- Region 1 only reads its second window's array. -/
theorem step1_in (c : Dev nD) : W4 m ρ c (Proc.devRef .tc main_arg0) = W2 m ρ c (Proc.devRef .tc main_arg0) :=
  ((W4_arr m ρ c 1).trans (((dat1 (V3 m ρ) c).arrAt_in 1 rfl _).trans (A_eq1 (V3 m ρ) c 1))).trans (keep1 (W2 m ρ c) (by decide))

/-- Region 2 only reads its second window's array. -/
theorem step2_in (c : Dev nD) : W6 m ρ c (Proc.devRef .tc main_v28) = W4 m ρ c (Proc.devRef .tc main_v28) :=
  ((W6_arr m ρ c 1).trans (((dat2 (V5 m ρ) c).arrAt_in 1 rfl _).trans (A_eq2 (V5 m ρ) c 1))).trans (keep2 (W4 m ρ c) (by decide))

/-- Region 3 only reads its second window's array. -/
theorem step3_in (c : Dev nD) : W8 m ρ c (Proc.devRef .tc main_v55) = W6 m ρ c (Proc.devRef .tc main_v55) :=
  ((W8_arr m ρ c 1).trans (((dat3 (V7 m ρ) c).arrAt_in 1 rfl _).trans (A_eq3 (V7 m ρ) c 1))).trans (keep3 (W6 m ρ c) (by decide))

/-- Region 4 only reads its second window's array. -/
theorem step4_in (c : Dev nD) : W10 m ρ c (Proc.devRef .tc main_v82) = W8 m ρ c (Proc.devRef .tc main_v82) :=
  ((W10_arr m ρ c 1).trans (((dat4 (V9 m ρ) c).arrAt_in 1 rfl _).trans (A_eq4 (V9 m ρ) c 1))).trans (keep4 (W8 m ρ c) (by decide))

/-- Region 5 only reads its second window's array. -/
theorem step5_in (c : Dev nD) : W12 m ρ c (Proc.devRef .tc main_v109) = W10 m ρ c (Proc.devRef .tc main_v109) :=
  ((W12_arr m ρ c 1).trans (((dat5 (V11 m ρ) c).arrAt_in 1 rfl _).trans (A_eq5 (V11 m ρ) c 1))).trans (keep5 (W10 m ρ c) (by decide))

/-! ## The arguments at the boundaries where they are read -/
theorem arg0_W2 (c : Dev nD) : W2 m ρ c (Proc.devRef .tc main_arg0) = m ((c : Thread nD τ).loc main_arg0) :=
  (step0 m ρ c (by decide) (by decide)).trans (rfl)
theorem arg1_W2 (c : Dev nD) : W2 m ρ c (Proc.devRef .tc main_arg1) = m ((c : Thread nD τ).loc main_arg1) :=
  (step0_in m ρ c).trans (rfl)
theorem arg4_W2 (c : Dev nD) : W2 m ρ c (Proc.devRef .tc main_arg4) = m ((c : Thread nD τ).loc main_arg4) :=
  (step0 m ρ c (by decide) (by decide)).trans (rfl)
theorem arg4_W4 (c : Dev nD) : W4 m ρ c (Proc.devRef .tc main_arg4) = m ((c : Thread nD τ).loc main_arg4) :=
  (step1 m ρ c (by decide) (by decide)).trans (arg4_W2 m ρ c)
theorem arg4_W6 (c : Dev nD) : W6 m ρ c (Proc.devRef .tc main_arg4) = m ((c : Thread nD τ).loc main_arg4) :=
  (step2 m ρ c (by decide) (by decide)).trans (arg4_W4 m ρ c)
theorem arg4_W8 (c : Dev nD) : W8 m ρ c (Proc.devRef .tc main_arg4) = m ((c : Thread nD τ).loc main_arg4) :=
  (step3 m ρ c (by decide) (by decide)).trans (arg4_W6 m ρ c)
theorem arg4_W10 (c : Dev nD) : W10 m ρ c (Proc.devRef .tc main_arg4) = m ((c : Thread nD τ).loc main_arg4) :=
  (step4 m ρ c (by decide) (by decide)).trans (arg4_W8 m ρ c)
theorem arg5_W2 (c : Dev nD) : W2 m ρ c (Proc.devRef .tc main_arg5) = m ((c : Thread nD τ).loc main_arg5) :=
  (step0 m ρ c (by decide) (by decide)).trans (rfl)
theorem arg5_W4 (c : Dev nD) : W4 m ρ c (Proc.devRef .tc main_arg5) = m ((c : Thread nD τ).loc main_arg5) :=
  (step1 m ρ c (by decide) (by decide)).trans (arg5_W2 m ρ c)
theorem arg5_W6 (c : Dev nD) : W6 m ρ c (Proc.devRef .tc main_arg5) = m ((c : Thread nD τ).loc main_arg5) :=
  (step2 m ρ c (by decide) (by decide)).trans (arg5_W4 m ρ c)
theorem arg5_W8 (c : Dev nD) : W8 m ρ c (Proc.devRef .tc main_arg5) = m ((c : Thread nD τ).loc main_arg5) :=
  (step3 m ρ c (by decide) (by decide)).trans (arg5_W6 m ρ c)
theorem arg5_W10 (c : Dev nD) : W10 m ρ c (Proc.devRef .tc main_arg5) = m ((c : Thread nD τ).loc main_arg5) :=
  (step4 m ρ c (by decide) (by decide)).trans (arg5_W8 m ρ c)
theorem arg5_W12 (c : Dev nD) : W12 m ρ c (Proc.devRef .tc main_arg5) = m ((c : Thread nD τ).loc main_arg5) :=
  (step5 m ρ c (by decide) (by decide)).trans (arg5_W10 m ρ c)
theorem arg6_W2 (c : Dev nD) : W2 m ρ c (Proc.devRef .tc main_arg6) = m ((c : Thread nD τ).loc main_arg6) :=
  (step0 m ρ c (by decide) (by decide)).trans (rfl)
theorem arg6_W4 (c : Dev nD) : W4 m ρ c (Proc.devRef .tc main_arg6) = m ((c : Thread nD τ).loc main_arg6) :=
  (step1 m ρ c (by decide) (by decide)).trans (arg6_W2 m ρ c)
theorem arg6_W6 (c : Dev nD) : W6 m ρ c (Proc.devRef .tc main_arg6) = m ((c : Thread nD τ).loc main_arg6) :=
  (step2 m ρ c (by decide) (by decide)).trans (arg6_W4 m ρ c)
theorem arg6_W8 (c : Dev nD) : W8 m ρ c (Proc.devRef .tc main_arg6) = m ((c : Thread nD τ).loc main_arg6) :=
  (step3 m ρ c (by decide) (by decide)).trans (arg6_W6 m ρ c)
theorem arg6_W10 (c : Dev nD) : W10 m ρ c (Proc.devRef .tc main_arg6) = m ((c : Thread nD τ).loc main_arg6) :=
  (step4 m ρ c (by decide) (by decide)).trans (arg6_W8 m ρ c)
theorem arg6_W12 (c : Dev nD) : W12 m ρ c (Proc.devRef .tc main_arg6) = m ((c : Thread nD τ).loc main_arg6) :=
  (step5 m ρ c (by decide) (by decide)).trans (arg6_W10 m ρ c)
theorem arg7_W2 (c : Dev nD) : W2 m ρ c (Proc.devRef .tc main_arg7) = m ((c : Thread nD τ).loc main_arg7) :=
  (step0 m ρ c (by decide) (by decide)).trans (rfl)
theorem arg7_W4 (c : Dev nD) : W4 m ρ c (Proc.devRef .tc main_arg7) = m ((c : Thread nD τ).loc main_arg7) :=
  (step1 m ρ c (by decide) (by decide)).trans (arg7_W2 m ρ c)
theorem arg7_W6 (c : Dev nD) : W6 m ρ c (Proc.devRef .tc main_arg7) = m ((c : Thread nD τ).loc main_arg7) :=
  (step2 m ρ c (by decide) (by decide)).trans (arg7_W4 m ρ c)
theorem arg7_W8 (c : Dev nD) : W8 m ρ c (Proc.devRef .tc main_arg7) = m ((c : Thread nD τ).loc main_arg7) :=
  (step3 m ρ c (by decide) (by decide)).trans (arg7_W6 m ρ c)
theorem arg7_W10 (c : Dev nD) : W10 m ρ c (Proc.devRef .tc main_arg7) = m ((c : Thread nD τ).loc main_arg7) :=
  (step4 m ρ c (by decide) (by decide)).trans (arg7_W8 m ρ c)
theorem arg7_W12 (c : Dev nD) : W12 m ρ c (Proc.devRef .tc main_arg7) = m ((c : Thread nD τ).loc main_arg7) :=
  (step5 m ρ c (by decide) (by decide)).trans (arg7_W10 m ρ c)
theorem arg8_W2 (c : Dev nD) : W2 m ρ c (Proc.devRef .tc main_arg8) = m ((c : Thread nD τ).loc main_arg8) :=
  (step0 m ρ c (by decide) (by decide)).trans (rfl)
theorem arg8_W4 (c : Dev nD) : W4 m ρ c (Proc.devRef .tc main_arg8) = m ((c : Thread nD τ).loc main_arg8) :=
  (step1 m ρ c (by decide) (by decide)).trans (arg8_W2 m ρ c)
theorem arg8_W6 (c : Dev nD) : W6 m ρ c (Proc.devRef .tc main_arg8) = m ((c : Thread nD τ).loc main_arg8) :=
  (step2 m ρ c (by decide) (by decide)).trans (arg8_W4 m ρ c)
theorem arg8_W8 (c : Dev nD) : W8 m ρ c (Proc.devRef .tc main_arg8) = m ((c : Thread nD τ).loc main_arg8) :=
  (step3 m ρ c (by decide) (by decide)).trans (arg8_W6 m ρ c)
theorem arg8_W10 (c : Dev nD) : W10 m ρ c (Proc.devRef .tc main_arg8) = m ((c : Thread nD τ).loc main_arg8) :=
  (step4 m ρ c (by decide) (by decide)).trans (arg8_W8 m ρ c)
theorem arg8_W12 (c : Dev nD) : W12 m ρ c (Proc.devRef .tc main_arg8) = m ((c : Thread nD τ).loc main_arg8) :=
  (step5 m ρ c (by decide) (by decide)).trans (arg8_W10 m ρ c)
theorem arg9_W2 (c : Dev nD) : W2 m ρ c (Proc.devRef .tc main_arg9) = m ((c : Thread nD τ).loc main_arg9) :=
  (step0 m ρ c (by decide) (by decide)).trans (rfl)
theorem arg9_W4 (c : Dev nD) : W4 m ρ c (Proc.devRef .tc main_arg9) = m ((c : Thread nD τ).loc main_arg9) :=
  (step1 m ρ c (by decide) (by decide)).trans (arg9_W2 m ρ c)
theorem arg9_W6 (c : Dev nD) : W6 m ρ c (Proc.devRef .tc main_arg9) = m ((c : Thread nD τ).loc main_arg9) :=
  (step2 m ρ c (by decide) (by decide)).trans (arg9_W4 m ρ c)
theorem arg9_W8 (c : Dev nD) : W8 m ρ c (Proc.devRef .tc main_arg9) = m ((c : Thread nD τ).loc main_arg9) :=
  (step3 m ρ c (by decide) (by decide)).trans (arg9_W6 m ρ c)
theorem arg9_W10 (c : Dev nD) : W10 m ρ c (Proc.devRef .tc main_arg9) = m ((c : Thread nD τ).loc main_arg9) :=
  (step4 m ρ c (by decide) (by decide)).trans (arg9_W8 m ρ c)
theorem arg9_W12 (c : Dev nD) : W12 m ρ c (Proc.devRef .tc main_arg9) = m ((c : Thread nD τ).loc main_arg9) :=
  (step5 m ρ c (by decide) (by decide)).trans (arg9_W10 m ρ c)
theorem arg10_W2 (c : Dev nD) : W2 m ρ c (Proc.devRef .tc main_arg10) = m ((c : Thread nD τ).loc main_arg10) :=
  (step0 m ρ c (by decide) (by decide)).trans (rfl)
theorem arg10_W4 (c : Dev nD) : W4 m ρ c (Proc.devRef .tc main_arg10) = m ((c : Thread nD τ).loc main_arg10) :=
  (step1 m ρ c (by decide) (by decide)).trans (arg10_W2 m ρ c)
theorem arg10_W6 (c : Dev nD) : W6 m ρ c (Proc.devRef .tc main_arg10) = m ((c : Thread nD τ).loc main_arg10) :=
  (step2 m ρ c (by decide) (by decide)).trans (arg10_W4 m ρ c)
theorem arg10_W8 (c : Dev nD) : W8 m ρ c (Proc.devRef .tc main_arg10) = m ((c : Thread nD τ).loc main_arg10) :=
  (step3 m ρ c (by decide) (by decide)).trans (arg10_W6 m ρ c)
theorem arg10_W10 (c : Dev nD) : W10 m ρ c (Proc.devRef .tc main_arg10) = m ((c : Thread nD τ).loc main_arg10) :=
  (step4 m ρ c (by decide) (by decide)).trans (arg10_W8 m ρ c)
theorem arg10_W12 (c : Dev nD) : W12 m ρ c (Proc.devRef .tc main_arg10) = m ((c : Thread nD τ).loc main_arg10) :=
  (step5 m ρ c (by decide) (by decide)).trans (arg10_W10 m ρ c)
theorem arg11_W2 (c : Dev nD) : W2 m ρ c (Proc.devRef .tc main_arg11) = m ((c : Thread nD τ).loc main_arg11) :=
  (step0 m ρ c (by decide) (by decide)).trans (rfl)
theorem arg11_W4 (c : Dev nD) : W4 m ρ c (Proc.devRef .tc main_arg11) = m ((c : Thread nD τ).loc main_arg11) :=
  (step1 m ρ c (by decide) (by decide)).trans (arg11_W2 m ρ c)
theorem arg11_W6 (c : Dev nD) : W6 m ρ c (Proc.devRef .tc main_arg11) = m ((c : Thread nD τ).loc main_arg11) :=
  (step2 m ρ c (by decide) (by decide)).trans (arg11_W4 m ρ c)
theorem arg11_W8 (c : Dev nD) : W8 m ρ c (Proc.devRef .tc main_arg11) = m ((c : Thread nD τ).loc main_arg11) :=
  (step3 m ρ c (by decide) (by decide)).trans (arg11_W6 m ρ c)
theorem arg12_W2 (c : Dev nD) : W2 m ρ c (Proc.devRef .tc main_arg12) = m ((c : Thread nD τ).loc main_arg12) :=
  (step0 m ρ c (by decide) (by decide)).trans (rfl)
theorem arg12_W4 (c : Dev nD) : W4 m ρ c (Proc.devRef .tc main_arg12) = m ((c : Thread nD τ).loc main_arg12) :=
  (step1 m ρ c (by decide) (by decide)).trans (arg12_W2 m ρ c)
theorem arg12_W6 (c : Dev nD) : W6 m ρ c (Proc.devRef .tc main_arg12) = m ((c : Thread nD τ).loc main_arg12) :=
  (step2 m ρ c (by decide) (by decide)).trans (arg12_W4 m ρ c)
theorem arg12_W8 (c : Dev nD) : W8 m ρ c (Proc.devRef .tc main_arg12) = m ((c : Thread nD τ).loc main_arg12) :=
  (step3 m ρ c (by decide) (by decide)).trans (arg12_W6 m ρ c)
theorem arg13_W2 (c : Dev nD) : W2 m ρ c (Proc.devRef .tc main_arg13) = m ((c : Thread nD τ).loc main_arg13) :=
  (step0 m ρ c (by decide) (by decide)).trans (rfl)
theorem arg13_W4 (c : Dev nD) : W4 m ρ c (Proc.devRef .tc main_arg13) = m ((c : Thread nD τ).loc main_arg13) :=
  (step1 m ρ c (by decide) (by decide)).trans (arg13_W2 m ρ c)
theorem arg13_W6 (c : Dev nD) : W6 m ρ c (Proc.devRef .tc main_arg13) = m ((c : Thread nD τ).loc main_arg13) :=
  (step2 m ρ c (by decide) (by decide)).trans (arg13_W4 m ρ c)
theorem arg13_W8 (c : Dev nD) : W8 m ρ c (Proc.devRef .tc main_arg13) = m ((c : Thread nD τ).loc main_arg13) :=
  (step3 m ρ c (by decide) (by decide)).trans (arg13_W6 m ρ c)
theorem arg13_W10 (c : Dev nD) : W10 m ρ c (Proc.devRef .tc main_arg13) = m ((c : Thread nD τ).loc main_arg13) :=
  (step4 m ρ c (by decide) (by decide)).trans (arg13_W8 m ρ c)
theorem arg14_W2 (c : Dev nD) : W2 m ρ c (Proc.devRef .tc main_arg14) = m ((c : Thread nD τ).loc main_arg14) :=
  (step0 m ρ c (by decide) (by decide)).trans (rfl)
theorem arg14_W4 (c : Dev nD) : W4 m ρ c (Proc.devRef .tc main_arg14) = m ((c : Thread nD τ).loc main_arg14) :=
  (step1 m ρ c (by decide) (by decide)).trans (arg14_W2 m ρ c)
theorem arg14_W6 (c : Dev nD) : W6 m ρ c (Proc.devRef .tc main_arg14) = m ((c : Thread nD τ).loc main_arg14) :=
  (step2 m ρ c (by decide) (by decide)).trans (arg14_W4 m ρ c)
theorem arg14_W8 (c : Dev nD) : W8 m ρ c (Proc.devRef .tc main_arg14) = m ((c : Thread nD τ).loc main_arg14) :=
  (step3 m ρ c (by decide) (by decide)).trans (arg14_W6 m ρ c)
theorem arg14_W10 (c : Dev nD) : W10 m ρ c (Proc.devRef .tc main_arg14) = m ((c : Thread nD τ).loc main_arg14) :=
  (step4 m ρ c (by decide) (by decide)).trans (arg14_W8 m ρ c)
theorem arg15_W2 (c : Dev nD) : W2 m ρ c (Proc.devRef .tc main_arg15) = m ((c : Thread nD τ).loc main_arg15) :=
  (step0 m ρ c (by decide) (by decide)).trans (rfl)
theorem arg15_W4 (c : Dev nD) : W4 m ρ c (Proc.devRef .tc main_arg15) = m ((c : Thread nD τ).loc main_arg15) :=
  (step1 m ρ c (by decide) (by decide)).trans (arg15_W2 m ρ c)
theorem arg15_W6 (c : Dev nD) : W6 m ρ c (Proc.devRef .tc main_arg15) = m ((c : Thread nD τ).loc main_arg15) :=
  (step2 m ρ c (by decide) (by decide)).trans (arg15_W4 m ρ c)
theorem arg15_W8 (c : Dev nD) : W8 m ρ c (Proc.devRef .tc main_arg15) = m ((c : Thread nD τ).loc main_arg15) :=
  (step3 m ρ c (by decide) (by decide)).trans (arg15_W6 m ρ c)
theorem arg15_W10 (c : Dev nD) : W10 m ρ c (Proc.devRef .tc main_arg15) = m ((c : Thread nD τ).loc main_arg15) :=
  (step4 m ρ c (by decide) (by decide)).trans (arg15_W8 m ρ c)
theorem arg15_W12 (c : Dev nD) : W12 m ρ c (Proc.devRef .tc main_arg15) = m ((c : Thread nD τ).loc main_arg15) :=
  (step5 m ρ c (by decide) (by decide)).trans (arg15_W10 m ρ c)
theorem arg16_W2 (c : Dev nD) : W2 m ρ c (Proc.devRef .tc main_arg16) = m ((c : Thread nD τ).loc main_arg16) :=
  (step0 m ρ c (by decide) (by decide)).trans (rfl)
theorem arg16_W4 (c : Dev nD) : W4 m ρ c (Proc.devRef .tc main_arg16) = m ((c : Thread nD τ).loc main_arg16) :=
  (step1 m ρ c (by decide) (by decide)).trans (arg16_W2 m ρ c)
theorem arg16_W6 (c : Dev nD) : W6 m ρ c (Proc.devRef .tc main_arg16) = m ((c : Thread nD τ).loc main_arg16) :=
  (step2 m ρ c (by decide) (by decide)).trans (arg16_W4 m ρ c)
theorem arg16_W8 (c : Dev nD) : W8 m ρ c (Proc.devRef .tc main_arg16) = m ((c : Thread nD τ).loc main_arg16) :=
  (step3 m ρ c (by decide) (by decide)).trans (arg16_W6 m ρ c)
theorem arg16_W10 (c : Dev nD) : W10 m ρ c (Proc.devRef .tc main_arg16) = m ((c : Thread nD τ).loc main_arg16) :=
  (step4 m ρ c (by decide) (by decide)).trans (arg16_W8 m ρ c)
theorem arg16_W12 (c : Dev nD) : W12 m ρ c (Proc.devRef .tc main_arg16) = m ((c : Thread nD τ).loc main_arg16) :=
  (step5 m ρ c (by decide) (by decide)).trans (arg16_W10 m ρ c)

/-! ## The transposed weight stacks, made in the first stretch -/
theorem main_v0_W2 (c : Dev nD) : W2 m ρ c (Proc.devRef .tc main_v0) = W1 m ρ c (Proc.devRef .tc main_v0) :=
  W2_of_ne m ρ c main_v0 (by decide)
theorem main_v0_W4 (c : Dev nD) : W4 m ρ c (Proc.devRef .tc main_v0) = W1 m ρ c (Proc.devRef .tc main_v0) :=
  (step1 m ρ c (by decide) (by decide)).trans (main_v0_W2 m ρ c)
theorem main_v0_W6 (c : Dev nD) : W6 m ρ c (Proc.devRef .tc main_v0) = W1 m ρ c (Proc.devRef .tc main_v0) :=
  (step2 m ρ c (by decide) (by decide)).trans (main_v0_W4 m ρ c)
theorem main_v0_W8 (c : Dev nD) : W8 m ρ c (Proc.devRef .tc main_v0) = W1 m ρ c (Proc.devRef .tc main_v0) :=
  (step3 m ρ c (by decide) (by decide)).trans (main_v0_W6 m ρ c)
theorem main_v0_W10 (c : Dev nD) : W10 m ρ c (Proc.devRef .tc main_v0) = W1 m ρ c (Proc.devRef .tc main_v0) :=
  (step4 m ρ c (by decide) (by decide)).trans (main_v0_W8 m ρ c)
theorem main_v1_W2 (c : Dev nD) : W2 m ρ c (Proc.devRef .tc main_v1) = W1 m ρ c (Proc.devRef .tc main_v1) :=
  W2_of_ne m ρ c main_v1 (by decide)
theorem main_v1_W4 (c : Dev nD) : W4 m ρ c (Proc.devRef .tc main_v1) = W1 m ρ c (Proc.devRef .tc main_v1) :=
  (step1 m ρ c (by decide) (by decide)).trans (main_v1_W2 m ρ c)
theorem main_v1_W6 (c : Dev nD) : W6 m ρ c (Proc.devRef .tc main_v1) = W1 m ρ c (Proc.devRef .tc main_v1) :=
  (step2 m ρ c (by decide) (by decide)).trans (main_v1_W4 m ρ c)
theorem main_v1_W8 (c : Dev nD) : W8 m ρ c (Proc.devRef .tc main_v1) = W1 m ρ c (Proc.devRef .tc main_v1) :=
  (step3 m ρ c (by decide) (by decide)).trans (main_v1_W6 m ρ c)
theorem main_v1_W10 (c : Dev nD) : W10 m ρ c (Proc.devRef .tc main_v1) = W1 m ρ c (Proc.devRef .tc main_v1) :=
  (step4 m ρ c (by decide) (by decide)).trans (main_v1_W8 m ρ c)

/-! ## Each layer's result array at the later boundaries where it is read -/
theorem main_v28_W4 (c : Dev nD) : W4 m ρ c (Proc.devRef .tc main_v28) = W2 m ρ c (Proc.devRef .tc main_v28) :=
  step1 m ρ c (by decide) (by decide)
theorem main_v28_W6 (c : Dev nD) : W6 m ρ c (Proc.devRef .tc main_v28) = W2 m ρ c (Proc.devRef .tc main_v28) :=
  (step2_in m ρ c).trans (main_v28_W4 m ρ c)
theorem main_v55_W6 (c : Dev nD) : W6 m ρ c (Proc.devRef .tc main_v55) = W4 m ρ c (Proc.devRef .tc main_v55) :=
  step2 m ρ c (by decide) (by decide)
theorem main_v82_W8 (c : Dev nD) : W8 m ρ c (Proc.devRef .tc main_v82) = W6 m ρ c (Proc.devRef .tc main_v82) :=
  step3 m ρ c (by decide) (by decide)
theorem main_v82_W10 (c : Dev nD) : W10 m ρ c (Proc.devRef .tc main_v82) = W6 m ρ c (Proc.devRef .tc main_v82) :=
  (step4_in m ρ c).trans (main_v82_W8 m ρ c)
theorem main_v109_W10 (c : Dev nD) : W10 m ρ c (Proc.devRef .tc main_v109) = W8 m ρ c (Proc.devRef .tc main_v109) :=
  step4 m ρ c (by decide) (by decide)
theorem main_v136_W12 (c : Dev nD) : W12 m ρ c (Proc.devRef .tc main_v136) = W10 m ρ c (Proc.devRef .tc main_v136) :=
  step5 m ρ c (by decide) (by decide)

end Cert.KernelIdeal.Carry

end
-- ==== Proof.Stretch.lean ====
/-
  What each stretch of host operations computes, as a function of the buffers it finds.

  Before each graph-convolution region the host program aggregates neighbour features into a mean (a gather, two scatter-adds
  and a division — the same operations, with the same constants, that the reference applies), and cuts out that layer's two
  weight matrices and bias vector from their stacks. Before the decoder region it gathers the two endpoint rows of every
  queried edge and joins them, and re-lays the decoder's parameters. Each fact reads one result buffer of one stretch from
  ANY contents the stretch may start from.
-/
import proofs.«162854_j13142599925848_1_alg».proof.Proof.Gen.KernelIdeal.Frame
import proofs.«162854_j13142599925848_1_alg».proof.Proof.Gen.ReferenceIdeal.Read

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable (W : Valuation τ sig (Elt Ideal))

/-- Member (l, r) of a weight stack, unit axes dropped. -/
abbrev member (l r : Nat) (y : FVec Ideal S3x2x64x64 .f32) (hs : S3x2x64x64.Slices (![l, r, 0, 0] : Fin 4 → Nat) S1x1x64x64) : FVec Ideal S64x64 .f32 :=
  shapeCast S64x64 (extractStridedSlice S1x1x64x64 ![l, r, 0, 0] y hs) shapeCasts_S1x1x64x64_S64x64

/-- Member (l, r) of the bias stack as a one-row matrix. -/
abbrev biasRow (l r : Nat) (y : FVec Ideal S3x2x64 .f32) (hs : S3x2x64.Slices (![l, r, 0] : Fin 3 → Nat) S1x1x64) : FVec Ideal S1x64 .f32 :=
  shapeCast S1x64 (shapeCast S64 (extractStridedSlice S1x1x64 ![l, r, 0] y hs) shapeCasts_S1x1x64_S64) shapeCasts_S64_S1x64

theorem stack0_l : StableHlo.after (hostOps0 (F := Ideal)) W (Proc.devRef .tc main_v0)
    = transpose S3x2x64x64 [0, 1, 3, 2] (W (Proc.devRef .tc main_arg2)) transposes_S3x2x64x64_S3x2x64x64_0_1_3_2 := by
  after_results_simp

theorem stack0_r : StableHlo.after (hostOps0 (F := Ideal)) W (Proc.devRef .tc main_v1)
    = transpose S3x2x64x64 [0, 1, 3, 2] (W (Proc.devRef .tc main_arg3)) transposes_S3x2x64x64_S3x2x64x64_0_1_3_2 := by
  after_results_simp

/-- Stretch 0: the mean of the neighbours' features. -/
theorem mean0 : StableHlo.after (hostOps0 (F := Ideal)) W (Proc.devRef .tc main_v20)
    = Cert.ReferenceIdeal.Read.val_main_v24 (F := Ideal) (W (Proc.devRef .tc main_arg0)) (W (Proc.devRef .tc main_arg11)) (W (Proc.devRef .tc main_arg12)) := by
  after_results_simp
  rfl

theorem wl0 : StableHlo.after (hostOps0 (F := Ideal)) W (Proc.devRef .tc main_v22)
    = member 0 0 (transpose S3x2x64x64 [0, 1, 3, 2] (W (Proc.devRef .tc main_arg2)) transposes_S3x2x64x64_S3x2x64x64_0_1_3_2) slices_S3x2x64x64_S1x1x64x64_0_0_0_0 := by
  after_results_simp
  rfl

theorem wr0 : StableHlo.after (hostOps0 (F := Ideal)) W (Proc.devRef .tc main_v26)
    = member 0 0 (transpose S3x2x64x64 [0, 1, 3, 2] (W (Proc.devRef .tc main_arg3)) transposes_S3x2x64x64_S3x2x64x64_0_1_3_2) slices_S3x2x64x64_S1x1x64x64_0_0_0_0 := by
  after_results_simp
  rfl

theorem bias0 : StableHlo.after (hostOps0 (F := Ideal)) W (Proc.devRef .tc main_v27)
    = biasRow 0 0 (W (Proc.devRef .tc main_arg4)) slices_S3x2x64_S1x1x64_0_0_0 := by
  after_results_simp
  rfl

/-- Stretch 1: the mean of the neighbours' features. -/
theorem mean1 : StableHlo.after (hostOps1 (F := Ideal)) W (Proc.devRef .tc main_v47)
    = Cert.ReferenceIdeal.Read.val_main_v57 (F := Ideal) (W (Proc.devRef .tc main_arg1)) (W (Proc.devRef .tc main_arg13)) (W (Proc.devRef .tc main_arg14)) := by
  after_results_simp
  rfl

theorem wl1 : StableHlo.after (hostOps1 (F := Ideal)) W (Proc.devRef .tc main_v49)
    = member 0 1 (W (Proc.devRef .tc main_v0)) slices_S3x2x64x64_S1x1x64x64_0_1_0_0 := by
  after_results_simp
  rfl

theorem wr1 : StableHlo.after (hostOps1 (F := Ideal)) W (Proc.devRef .tc main_v53)
    = member 0 1 (W (Proc.devRef .tc main_v1)) slices_S3x2x64x64_S1x1x64x64_0_1_0_0 := by
  after_results_simp
  rfl

theorem bias1 : StableHlo.after (hostOps1 (F := Ideal)) W (Proc.devRef .tc main_v54)
    = biasRow 0 1 (W (Proc.devRef .tc main_arg4)) slices_S3x2x64_S1x1x64_0_1_0 := by
  after_results_simp
  rfl

/-- Stretch 2: the mean of the neighbours' features. -/
theorem mean2 : StableHlo.after (hostOps2 (F := Ideal)) W (Proc.devRef .tc main_v74)
    = Cert.ReferenceIdeal.Read.val_main_v24 (F := Ideal) (W (Proc.devRef .tc main_v55)) (W (Proc.devRef .tc main_arg11)) (W (Proc.devRef .tc main_arg12)) := by
  after_results_simp
  rfl

theorem wl2 : StableHlo.after (hostOps2 (F := Ideal)) W (Proc.devRef .tc main_v76)
    = member 1 0 (W (Proc.devRef .tc main_v0)) slices_S3x2x64x64_S1x1x64x64_1_0_0_0 := by
  after_results_simp
  rfl

theorem wr2 : StableHlo.after (hostOps2 (F := Ideal)) W (Proc.devRef .tc main_v80)
    = member 1 0 (W (Proc.devRef .tc main_v1)) slices_S3x2x64x64_S1x1x64x64_1_0_0_0 := by
  after_results_simp
  rfl

theorem bias2 : StableHlo.after (hostOps2 (F := Ideal)) W (Proc.devRef .tc main_v81)
    = biasRow 1 0 (W (Proc.devRef .tc main_arg4)) slices_S3x2x64_S1x1x64_1_0_0 := by
  after_results_simp
  rfl

/-- Stretch 3: the mean of the neighbours' features. -/
theorem mean3 : StableHlo.after (hostOps3 (F := Ideal)) W (Proc.devRef .tc main_v101)
    = Cert.ReferenceIdeal.Read.val_main_v57 (F := Ideal) (W (Proc.devRef .tc main_v28)) (W (Proc.devRef .tc main_arg13)) (W (Proc.devRef .tc main_arg14)) := by
  after_results_simp
  rfl

theorem wl3 : StableHlo.after (hostOps3 (F := Ideal)) W (Proc.devRef .tc main_v103)
    = member 1 1 (W (Proc.devRef .tc main_v0)) slices_S3x2x64x64_S1x1x64x64_1_1_0_0 := by
  after_results_simp
  rfl

theorem wr3 : StableHlo.after (hostOps3 (F := Ideal)) W (Proc.devRef .tc main_v107)
    = member 1 1 (W (Proc.devRef .tc main_v1)) slices_S3x2x64x64_S1x1x64x64_1_1_0_0 := by
  after_results_simp
  rfl

theorem bias3 : StableHlo.after (hostOps3 (F := Ideal)) W (Proc.devRef .tc main_v108)
    = biasRow 1 1 (W (Proc.devRef .tc main_arg4)) slices_S3x2x64_S1x1x64_1_1_0 := by
  after_results_simp
  rfl

/-- Stretch 4: the mean of the neighbours' features. -/
theorem mean4 : StableHlo.after (hostOps4 (F := Ideal)) W (Proc.devRef .tc main_v128)
    = Cert.ReferenceIdeal.Read.val_main_v24 (F := Ideal) (W (Proc.devRef .tc main_v109)) (W (Proc.devRef .tc main_arg11)) (W (Proc.devRef .tc main_arg12)) := by
  after_results_simp
  rfl

theorem wl4 : StableHlo.after (hostOps4 (F := Ideal)) W (Proc.devRef .tc main_v130)
    = member 2 0 (W (Proc.devRef .tc main_v0)) slices_S3x2x64x64_S1x1x64x64_2_0_0_0 := by
  after_results_simp
  rfl

theorem wr4 : StableHlo.after (hostOps4 (F := Ideal)) W (Proc.devRef .tc main_v134)
    = member 2 0 (W (Proc.devRef .tc main_v1)) slices_S3x2x64x64_S1x1x64x64_2_0_0_0 := by
  after_results_simp
  rfl

theorem bias4 : StableHlo.after (hostOps4 (F := Ideal)) W (Proc.devRef .tc main_v135)
    = biasRow 2 0 (W (Proc.devRef .tc main_arg4)) slices_S3x2x64_S1x1x64_2_0_0 := by
  after_results_simp
  rfl

/-- Stretch 5: the mean of the neighbours' features. -/
theorem mean5 : StableHlo.after (hostOps5 (F := Ideal)) W (Proc.devRef .tc main_v155)
    = Cert.ReferenceIdeal.Read.val_main_v57 (F := Ideal) (W (Proc.devRef .tc main_v82)) (W (Proc.devRef .tc main_arg13)) (W (Proc.devRef .tc main_arg14)) := by
  after_results_simp
  rfl

theorem wl5 : StableHlo.after (hostOps5 (F := Ideal)) W (Proc.devRef .tc main_v157)
    = member 2 1 (W (Proc.devRef .tc main_v0)) slices_S3x2x64x64_S1x1x64x64_2_1_0_0 := by
  after_results_simp
  rfl

theorem wr5 : StableHlo.after (hostOps5 (F := Ideal)) W (Proc.devRef .tc main_v161)
    = member 2 1 (W (Proc.devRef .tc main_v1)) slices_S3x2x64x64_S1x1x64x64_2_1_0_0 := by
  after_results_simp
  rfl

theorem bias5 : StableHlo.after (hostOps5 (F := Ideal)) W (Proc.devRef .tc main_v162)
    = biasRow 2 1 (W (Proc.devRef .tc main_arg4)) slices_S3x2x64_S1x1x64_2_1_0 := by
  after_results_simp
  rfl

/-- Stretch 6: the two endpoint rows of every queried edge, joined. -/
theorem edges6 : StableHlo.after (hostOps6 (F := Ideal)) W (Proc.devRef .tc main_v178)
    = concatenate S500000x128 1 [⟨S500000x64, Host.gather gather_S200000x64_S500000x1_S500000x64_1_0_n_n_0_1_164 (W (Proc.devRef .tc main_v163)) (Cert.ReferenceIdeal.Read.val_main_v207 (F := Ideal) (W (Proc.devRef .tc main_arg15)))⟩,
        ⟨S500000x64, Host.gather gather_S50000x64_S500000x1_S500000x64_1_0_n_n_0_1_164 (W (Proc.devRef .tc main_v136)) (Cert.ReferenceIdeal.Read.val_main_v214 (F := Ideal) (W (Proc.devRef .tc main_arg16)))⟩]
      concatenates_S500000x64_S500000x64_S500000x128_d1 := by
  after_results_simp
  rfl

theorem w1_6 : StableHlo.after (hostOps6 (F := Ideal)) W (Proc.devRef .tc main_v179)
    = Cert.ReferenceIdeal.Read.val_main_v217 (F := Ideal) (W (Proc.devRef .tc main_arg5)) := by
  after_results_simp
  rfl

theorem w2_6 : StableHlo.after (hostOps6 (F := Ideal)) W (Proc.devRef .tc main_v180)
    = Cert.ReferenceIdeal.Read.val_main_v223 (F := Ideal) (W (Proc.devRef .tc main_arg7)) := by
  after_results_simp
  rfl

theorem w3_6 : StableHlo.after (hostOps6 (F := Ideal)) W (Proc.devRef .tc main_v181)
    = Cert.ReferenceIdeal.Read.val_main_v229 (F := Ideal) (W (Proc.devRef .tc main_arg9)) := by
  after_results_simp
  rfl

theorem b1_6 : StableHlo.after (hostOps6 (F := Ideal)) W (Proc.devRef .tc main_v182)
    = shapeCast S1x64 (W (Proc.devRef .tc main_arg6)) shapeCasts_S64_S1x64 := by
  after_results_simp
  rfl

theorem b2_6 : StableHlo.after (hostOps6 (F := Ideal)) W (Proc.devRef .tc main_v183)
    = shapeCast S1x64 (W (Proc.devRef .tc main_arg8)) shapeCasts_S64_S1x64 := by
  after_results_simp
  rfl

theorem b3_6 : StableHlo.after (hostOps6 (F := Ideal)) W (Proc.devRef .tc main_v184)
    = shapeCast S1x1 (W (Proc.devRef .tc main_arg10)) shapeCasts_S1_S1x1 := by
  after_results_simp
  rfl

/-- The last stretch: the decoder's one-column result recast as a vector. -/
theorem out7 : StableHlo.after (hostOps7 (F := Ideal)) W (Proc.devRef .tc main_v186)
    = shapeCast S500000 (W (Proc.devRef .tc main_v185)) shapeCasts_S500000x1_S500000 := by
  after_results_simp
  rfl

end Cert.KernelIdeal.Stretch

end
-- ==== Proof.LibStackLayouts.lean ====
/-
  Two re-layings of the layer parameters, read entry by entry.

  The layer weights come as a stack [3, 2, 64, 64] of matrices W(l, r). One program transposes every matrix of the stack,
  takes member (l, r) and drops the two unit axes; the other takes member (l, r), drops the unit axes and transposes the
  one matrix. Entry (k, q) of either is W(l, r)(q, k). The layer biases come as a stack [3, 2, 64] of vectors; member (l, r)
  recast as a one-row matrix is that vector spread along the row.
-/
import Idealize.ShloMosaic.Lib.Pipeline.Value
import Idealize.ShloMosaic.Lib.ValueIdx
import Idealize.ShloMosaic.Lib.ValueLayout

noncomputable section

namespace Cert.Layouts

open Idealize.ShloMosaic Idealize.ShloMosaic.ValueIdx

variable {α : Type}

/-- Member (l, r) of the stack, unit axes dropped, read at (a, b): the stack's entry (l, r, a, b). -/
theorem member_apply (x : (⟨4, ![3, 2, 64, 64]⟩ : Shape).Idx → α) (l r : Nat) (hl : l < 3) (hr : r < 2)
    (hs : (⟨4, ![3, 2, 64, 64]⟩ : Shape).Slices (![l, r, 0, 0] : Fin 4 → Nat) ⟨4, ![1, 1, 64, 64]⟩)
    (hc : (⟨4, ![1, 1, 64, 64]⟩ : Shape).ShapeCasts ⟨2, ![64, 64]⟩) (a b : Fin 64) :
    shapeCast ⟨2, ![64, 64]⟩ (extractStridedSlice ⟨4, ![1, 1, 64, 64]⟩ ![l, r, 0, 0] x hs) hc (ix2 a b)
      = x (ix4 (⟨l, hl⟩ : Fin 3) (⟨r, hr⟩ : Fin 2) a b) := by
  refine (shapeCast_apply _ hc (ix2 a b) (ix4 (0 : Fin 1) (0 : Fin 1) a b) ?_).trans ?_
  · rewrite [Shape.rowMajor_val_four, Shape.rowMajor_val_two]
    have ha : a.val < 64 := a.isLt
    have hb : b.val < 64 := b.isLt
    show ((0 * 1 + 0) * 64 + a.val) * 64 + b.val = a.val * 64 + b.val
    omega
  · refine extractStridedSlice_apply ![l, r, 0, 0] x hs _ _ fun ax => ?_
    match ax with
    | ⟨0, _⟩ => show l = l + 0; omega
    | ⟨1, _⟩ => show r = r + 0; omega
    | ⟨2, _⟩ => show a.val = 0 + a.val; omega
    | ⟨3, _⟩ => show b.val = 0 + b.val; omega

/-- Transposing every matrix of the stack and then taking member (l, r) is taking member (l, r) and transposing it. -/
theorem transposed_member (x : (⟨4, ![3, 2, 64, 64]⟩ : Shape).Idx → α) (l r : Nat) (hl : l < 3) (hr : r < 2)
    (ht : (⟨4, ![3, 2, 64, 64]⟩ : Shape).Transposes [0, 1, 3, 2] ⟨4, ![3, 2, 64, 64]⟩)
    (hs : (⟨4, ![3, 2, 64, 64]⟩ : Shape).Slices (![l, r, 0, 0] : Fin 4 → Nat) ⟨4, ![1, 1, 64, 64]⟩)
    (hc : (⟨4, ![1, 1, 64, 64]⟩ : Shape).ShapeCasts ⟨2, ![64, 64]⟩)
    (ht2 : (⟨2, ![64, 64]⟩ : Shape).Transposes [1, 0] ⟨2, ![64, 64]⟩) :
    shapeCast ⟨2, ![64, 64]⟩ (extractStridedSlice ⟨4, ![1, 1, 64, 64]⟩ ![l, r, 0, 0]
        (transpose ⟨4, ![3, 2, 64, 64]⟩ [0, 1, 3, 2] x ht) hs) hc
      = transpose ⟨2, ![64, 64]⟩ [1, 0]
          (shapeCast ⟨2, ![64, 64]⟩ (extractStridedSlice ⟨4, ![1, 1, 64, 64]⟩ ![l, r, 0, 0] x hs) hc) ht2 := by
  funext j
  obtain ⟨a, b, rfl⟩ : ∃ (a : Fin 64) (b : Fin 64), j = ix2 a b := ⟨j 0, j 1, eq_ix2 j⟩
  rw [member_apply _ l r hl hr hs hc a b]
  refine Eq.trans ?_ (Eq.symm ((transpose_apply [1, 0] _ ht2 (ix2 a b) (ix2 b a) (fun q => match q with
    | ⟨0, _⟩ => rfl
    | ⟨1, _⟩ => rfl)).trans (member_apply x l r hl hr hs hc b a)))
  exact transpose_apply [0, 1, 3, 2] x ht _ _ (fun q => match q with
    | ⟨0, _⟩ => rfl
    | ⟨1, _⟩ => rfl
    | ⟨2, _⟩ => rfl
    | ⟨3, _⟩ => rfl)

/-- A vector of length n recast as a one-row matrix is the vector spread along the row. -/
theorem row_of_vector {n : Nat} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext j
  obtain ⟨u, b, rfl⟩ : ∃ (u : Fin 1) (b : Fin n), j = ix2 u b := ⟨j 0, j 1, eq_ix2 j⟩
  have hu : u.val = 0 := by omega
  refine (shapeCast_apply v hc (ix2 u b) (ix1 b) ?_).trans
    (broadcastInDim_apply ![1] hb v (ix2 u b) (ix1 b) (fun ax => ?_)).symm
  · rw [Shape.rowMajor_val_two, Shape.rowMajor_val_one]
    show b.val = u.val * n + b.val
    rw [hu, Nat.zero_mul, Nat.zero_add]
  · match ax with
    | ⟨0, _⟩ =>
      show b.val = if n = 1 then 0 else b.val
      split
      · have := b.isLt; omega
      · rfl

end Cert.Layouts

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«162854_j13142599925848_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«162854_j13142599925848_1_alg».proof.Proof.LibRowBlockProduct
import proofs.«162854_j13142599925848_1_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.LibRoundedConvBlock.lean ====
/-
  One graph-convolution layer on a block of rows, as a kernel computes it and as the host writes it.

  The layer is Y = (A · W_l + bias row) + H · W_r, optionally followed by max(·, 0). A kernel handling rows
  off, …, off + m - 1 rounds its four operands to bf16 on the way into the two products and accumulates each into zero;
  over the extended reals rounding is the identity, so what it leaves at a block index is the host's whole-array layer of
  the unrounded arrays read at the row the block index stands for. Nothing is reordered, so nothing is assumed finite.
-/
import proofs.«162854_j13142599925848_1_alg».proof.Proof.LibConvBlock

noncomputable section

namespace Cert.Sage

open Idealize.ShloMosaic Idealize.ShloMosaic.ValueIdx Cert.Lib

/-- The host's product of operands rounded to bf16 is its product of the operands: rounding is the identity on the extended
    reals. -/
theorem dotGeneral_rounded {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    Host.dotGeneral (F := Ideal) d prec (truncf .bf16 a h1) (truncf .bf16 b h2) = Host.dotGeneral (F := Ideal) d prec a b := by
  funext j
  exact (Ideal.dotGeneral_apply d prec default (truncf .bf16 a h1) (truncf .bf16 b h2) j).trans
    (Ideal.dotGeneral_apply d prec default a b j).symm

/-- The rectified layer on an m-row block, operands rounded to bf16, read at a block index, is the host's rectified layer
    of the whole arrays read where the result block puts the index. -/
theorem relu_layer_block {m M k n : Nat}
    (xa xh : FVec Ideal ⟨2, ![m, k]⟩ .f32) (wl wr : FVec Ideal ⟨2, ![k, n]⟩ .f32) (brow : FVec Ideal ⟨2, ![1, n]⟩ .f32)
    (A H : FVec Ideal ⟨2, ![M, k]⟩ .f32)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (h1 h2 h3 h4 : FTy.bf16.bits < FTy.f32.bits)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) none (truncf .bf16 xa h1) (truncf .bf16 wl h2)
              (constant ⟨2, ![m, n]⟩ .f32 0x00000000#32))
            (broadcastTo ⟨2, ![m, n]⟩ brow hk))
          (matmul (DotDims.plain m k n) none (truncf .bf16 xh h3) (truncf .bf16 wr h4)
            (constant ⟨2, ![m, n]⟩ .f32 0x00000000#32)))
        (broadcast ⟨2, ![m, n]⟩ (Scalar.ofBits (F := Ideal) .f32 z)) j
      = maximumf (addf (addf (Host.dotGeneral (F := Ideal) (DotDims.plain M k n) none A wl)
              (broadcastInDim ⟨2, ![M, n]⟩ ![0, 1] hh brow))
            (Host.dotGeneral (F := Ideal) (DotDims.plain M k n) none H wr))
          (broadcastInDim ⟨2, ![M, n]⟩ ![] hz (constant (F := Ideal) ⟨0, ![]⟩ .f32 z)) (eo j) := by
  rw [← dotGeneral_rounded (DotDims.plain M k n) none A wl h1 h2, ← dotGeneral_rounded (DotDims.plain M k n) none H wr h3 h4]
  exact conv_relu_row_block none (truncf .bf16 xa h1) (truncf .bf16 xh h3) (truncf .bf16 wl h2) (truncf .bf16 wr h4) brow
    (truncf .bf16 A h1) (truncf .bf16 H h3) ea eh eo off (fun y => hxa y) (fun y => hxh y)
    hea0 hea1 heh0 heh1 heo0 heo1 hk hh z hz j

/-- The same layer without the rectifier. -/
theorem layer_block {m M k n : Nat}
    (xa xh : FVec Ideal ⟨2, ![m, k]⟩ .f32) (wl wr : FVec Ideal ⟨2, ![k, n]⟩ .f32) (brow : FVec Ideal ⟨2, ![1, n]⟩ .f32)
    (A H : FVec Ideal ⟨2, ![M, k]⟩ .f32)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (h1 h2 h3 h4 : FTy.bf16.bits < FTy.f32.bits)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) none (truncf .bf16 xa h1) (truncf .bf16 wl h2)
            (constant ⟨2, ![m, n]⟩ .f32 0x00000000#32))
          (broadcastTo ⟨2, ![m, n]⟩ brow hk))
        (matmul (DotDims.plain m k n) none (truncf .bf16 xh h3) (truncf .bf16 wr h4)
          (constant ⟨2, ![m, n]⟩ .f32 0x00000000#32)) j
      = addf (addf (Host.dotGeneral (F := Ideal) (DotDims.plain M k n) none A wl)
            (broadcastInDim ⟨2, ![M, n]⟩ ![0, 1] hh brow))
          (Host.dotGeneral (F := Ideal) (DotDims.plain M k n) none H wr) (eo j) := by
  rw [← dotGeneral_rounded (DotDims.plain M k n) none A wl h1 h2, ← dotGeneral_rounded (DotDims.plain M k n) none H wr h3 h4]
  exact conv_row_block none (truncf .bf16 xa h1) (truncf .bf16 xh h3) (truncf .bf16 wl h2) (truncf .bf16 wr h4) brow
    (truncf .bf16 A h1) (truncf .bf16 H h3) ea eh eo off (fun y => hxa y) (fun y => hxh y)
    hea0 hea1 heh0 heh1 heo0 heo1 hk hh j

end Cert.Sage

end
-- ==== Proof.SageRegion0.lean ====
/-
  Region 0 of the idealized kernel program: one graph-convolution layer over 50000 rows, 5 blocks of 10000 rows.

  Grid point t loads rows 10000·t, …, 10000·t + 9999 of the aggregated-neighbour array and of the node-feature array, the
  two 64×64 weight matrices and the bias row whole, and stores the layer's value on those rows, rectified. The 5 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k0_pay1 (F := Ideal) x0 x3 x5 x8 x12 = maximumf (addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32))) (broadcast S10000x64 (Scalar.ofBits (F := Ideal) .f32 0x00000000#32)) := by
  unfold k0_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S50000x64 .f32) (WL WR : FVec Ideal S64x64 .f32) (B : FVec Ideal S1x64 .f32)
    (ea eh eo : S10000x64.Idx → S50000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S50000x64 (![0, 1] : Fin 2 → Fin 2))
    (hz : S_.BroadcastsInDim S50000x64 (![] : Fin 0 → Fin 2))
    (j : S10000x64.Idx) :
    k0_pay1 (F := Ideal) xa xh xwl xwr xb j = maximumf (addf (addf (Host.dotGeneral (F := Ideal) (φ₁ := .f32) (φ₂ := .f32) (DotDims.plain 50000 64 64) none A WL) (broadcastInDim S50000x64 ![0, 1] hh B)) (Host.dotGeneral (F := Ideal) (φ₁ := .f32) (φ₂ := .f32) (DotDims.plain 50000 64 64) none H WR)) (broadcastInDim S50000x64 ![] hz (constant (F := Ideal) S_ .f32 0x00000000#32)) (eo j) := by
  subst hwl hwr hb
  rw [payload_eq]
  exact Cert.Sage.relu_layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh 0x00000000#32 hz j

/-- The printed index maps over the grid: the row-blocked windows move with the output, the others stay at the origin. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some grid point's. -/
theorem index_onto : ∀ q : Fin 5, ∃ t : Fin cfg0.N, win0_5.index t = ![q.val, 0] :=
  (by decide +kernel : ∀ q : Fin 5, ∃ t : Fin grid0.N, win0_5.index t = ![q.val, 0])

theorem wl_whole (c : Dev nD) (t : Fin cfg0.N) : iblk0 V c 2 t = V c main_v22 := by
  obtain ⟨-, -, -, -, e0, e1, -⟩ := index_facts t
  funext y
  show V c main_v22 (((cfg0.win 2).blk t).view.emb y) = V c main_v22 y
  refine congrArg (V c main_v22) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem bias_whole (c : Dev nD) (t : Fin cfg0.N) : iblk0 V c 3 t = V c main_v27 := by
  obtain ⟨-, -, -, -, -, -, e0, e1, -⟩ := index_facts t
  funext y
  show V c main_v27 (((cfg0.win 3).blk t).view.emb y) = V c main_v27 y
  refine congrArg (V c main_v27) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem wr_whole (c : Dev nD) (t : Fin cfg0.N) : iblk0 V c 4 t = V c main_v26 := by
  obtain ⟨-, -, -, -, -, -, -, -, e0, e1, -⟩ := index_facts t
  funext y
  show V c main_v26 (((cfg0.win 4).blk t).view.emb y) = V c main_v26 y
  refine congrArg (V c main_v26) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- What grid point t writes back is block t of the whole-array layer of the arrays the region found. -/
theorem flushed_eq (c : Dev nD) (t : Fin cfg0.N)
    (hh : S1x64.BroadcastsInDim S50000x64 (![0, 1] : Fin 2 → Fin 2))
    (hz : S_.BroadcastsInDim S50000x64 (![] : Fin 0 → Fin 2)) :
    (dat0 (F := Ideal) V c).flushed 5 t = ((cfg0.win 5).blk t).view.read (Elt Ideal)
      (maximumf (addf (addf (Host.dotGeneral (F := Ideal) (φ₁ := .f32) (φ₂ := .f32) (DotDims.plain 50000 64 64) none (V c main_v20) (V c main_v22)) (broadcastInDim S50000x64 ![0, 1] hh (V c main_v27))) (Host.dotGeneral (F := Ideal) (φ₁ := .f32) (φ₂ := .f32) (DotDims.plain 50000 64 64) none (V c main_arg1) (V c main_v26))) (broadcastInDim S50000x64 ![] hz (constant (F := Ideal) S_ .f32 0x00000000#32))) := by
  show (cfg0.win 5).cut (grid0.coords t) ((dat0 V c).after 5 t) = _
  rw [after0_5]
  unfold out0_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk0 V c 0 t) (iblk0 V c 1 t) (iblk0 V c 2 t) (iblk0 V c 4 t) (iblk0 V c 3 t)
    (V c main_v20) (V c main_arg1) (V c main_v22) (V c main_v26) (V c main_v27)
    (((cfg0.win 0).blk t).view.emb) (((cfg0.win 1).blk t).view.emb) (((cfg0.win 5).blk t).view.emb)
    (win0_5.index t (0 : Fin 2) * 10000)
    (fun y => rfl) (fun y => rfl) (wl_whole V c t) (wr_whole V c t) (bias_whole V c t)
    (fun y => by show win0_0.index t (0 : Fin 2) * 10000 + 1 * (y 0).val = _; omega)
    (fun y => by show win0_0.index t (1 : Fin 2) * 64 + 1 * (y 1).val = _; omega)
    (fun y => by show win0_1.index t (0 : Fin 2) * 10000 + 1 * (y 0).val = _; omega)
    (fun y => by show win0_1.index t (1 : Fin 2) * 64 + 1 * (y 1).val = _; omega)
    (fun y => by show win0_5.index t (0 : Fin 2) * 10000 + 1 * (y 0).val = _; omega)
    (fun y => by show win0_5.index t (1 : Fin 2) * 64 + 1 * (y 1).val = _; omega)
    hh hz j

/-- A row is in grid point t's block when it lies in rows 10000·t, …, 10000·t + 9999. -/
theorem mem_block (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- The blocks tile the array: row r is in block r / 10000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After the region its result array is the whole-array layer of the arrays the region found. -/
theorem array_eq (c : Dev nD)
    (hh : S1x64.BroadcastsInDim S50000x64 (![0, 1] : Fin 2 → Fin 2))
    (hz : S_.BroadcastsInDim S50000x64 (![] : Fin 0 → Fin 2)) :
    (dat0 (F := Ideal) V c).arrAt 5 cfg0.N
      = maximumf (addf (addf (Host.dotGeneral (F := Ideal) (φ₁ := .f32) (φ₂ := .f32) (DotDims.plain 50000 64 64) none (V c main_v20) (V c main_v22)) (broadcastInDim S50000x64 ![0, 1] hh (V c main_v27))) (Host.dotGeneral (F := Ideal) (φ₁ := .f32) (φ₂ := .f32) (DotDims.plain 50000 64 64) none (V c main_arg1) (V c main_v26))) (broadcastInDim S50000x64 ![] hz (constant (F := Ideal) S_ .f32 0x00000000#32)) :=
  (dat0 (F := Ideal) V c).arrAt_eq_of_cover 5 _ (fun t _ => flushed_eq V c t hh hz) cover

end Cert.KernelIdeal.SageRegion0

end
-- ==== Proof.SageRegion1.lean ====
/-
  Region 1 of the idealized kernel program: one graph-convolution layer over 200000 rows, 20 blocks of 10000 rows.

  Grid point t loads rows 10000·t, …, 10000·t + 9999 of the aggregated-neighbour array and of the node-feature array, the
  two 64×64 weight matrices and the bias row whole, and stores the layer's value on those rows, rectified. The 20 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k1_pay1 (F := Ideal) x0 x3 x5 x8 x12 = maximumf (addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32))) (broadcast S10000x64 (Scalar.ofBits (F := Ideal) .f32 0x00000000#32)) := by
  unfold k1_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S200000x64 .f32) (WL WR : FVec Ideal S64x64 .f32) (B : FVec Ideal S1x64 .f32)
    (ea eh eo : S10000x64.Idx → S200000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S200000x64 (![0, 1] : Fin 2 → Fin 2))
    (hz : S_.BroadcastsInDim S200000x64 (![] : Fin 0 → Fin 2))
    (j : S10000x64.Idx) :
    k1_pay1 (F := Ideal) xa xh xwl xwr xb j = maximumf (addf (addf (Host.dotGeneral (F := Ideal) (φ₁ := .f32) (φ₂ := .f32) (DotDims.plain 200000 64 64) none A WL) (broadcastInDim S200000x64 ![0, 1] hh B)) (Host.dotGeneral (F := Ideal) (φ₁ := .f32) (φ₂ := .f32) (DotDims.plain 200000 64 64) none H WR)) (broadcastInDim S200000x64 ![] hz (constant (F := Ideal) S_ .f32 0x00000000#32)) (eo j) := by
  subst hwl hwr hb
  rw [payload_eq]
  exact Cert.Sage.relu_layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh 0x00000000#32 hz j

/-- The printed index maps over the grid: the row-blocked windows move with the output, the others stay at the origin. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block of rows is some grid point's. -/
theorem index_onto : ∀ q : Fin 20, ∃ t : Fin cfg1.N, win1_5.index t = ![q.val, 0] :=
  (by decide +kernel : ∀ q : Fin 20, ∃ t : Fin grid1.N, win1_5.index t = ![q.val, 0])

theorem wl_whole (c : Dev nD) (t : Fin cfg1.N) : iblk1 V c 2 t = V c main_v49 := by
  obtain ⟨-, -, -, -, e0, e1, -⟩ := index_facts t
  funext y
  show V c main_v49 (((cfg1.win 2).blk t).view.emb y) = V c main_v49 y
  refine congrArg (V c main_v49) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem bias_whole (c : Dev nD) (t : Fin cfg1.N) : iblk1 V c 3 t = V c main_v54 := by
  obtain ⟨-, -, -, -, -, -, e0, e1, -⟩ := index_facts t
  funext y
  show V c main_v54 (((cfg1.win 3).blk t).view.emb y) = V c main_v54 y
  refine congrArg (V c main_v54) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem wr_whole (c : Dev nD) (t : Fin cfg1.N) : iblk1 V c 4 t = V c main_v53 := by
  obtain ⟨-, -, -, -, -, -, -, -, e0, e1, -⟩ := index_facts t
  funext y
  show V c main_v53 (((cfg1.win 4).blk t).view.emb y) = V c main_v53 y
  refine congrArg (V c main_v53) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What grid point t writes back is block t of the whole-array layer of the arrays the region found. -/
theorem flushed_eq (c : Dev nD) (t : Fin cfg1.N)
    (hh : S1x64.BroadcastsInDim S200000x64 (![0, 1] : Fin 2 → Fin 2))
    (hz : S_.BroadcastsInDim S200000x64 (![] : Fin 0 → Fin 2)) :
    (dat1 (F := Ideal) V c).flushed 5 t = ((cfg1.win 5).blk t).view.read (Elt Ideal)
      (maximumf (addf (addf (Host.dotGeneral (F := Ideal) (φ₁ := .f32) (φ₂ := .f32) (DotDims.plain 200000 64 64) none (V c main_v47) (V c main_v49)) (broadcastInDim S200000x64 ![0, 1] hh (V c main_v54))) (Host.dotGeneral (F := Ideal) (φ₁ := .f32) (φ₂ := .f32) (DotDims.plain 200000 64 64) none (V c main_arg0) (V c main_v53))) (broadcastInDim S200000x64 ![] hz (constant (F := Ideal) S_ .f32 0x00000000#32))) := by
  show (cfg1.win 5).cut (grid1.coords t) ((dat1 V c).after 5 t) = _
  rw [after1_5]
  unfold out1_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk1 V c 0 t) (iblk1 V c 1 t) (iblk1 V c 2 t) (iblk1 V c 4 t) (iblk1 V c 3 t)
    (V c main_v47) (V c main_arg0) (V c main_v49) (V c main_v53) (V c main_v54)
    (((cfg1.win 0).blk t).view.emb) (((cfg1.win 1).blk t).view.emb) (((cfg1.win 5).blk t).view.emb)
    (win1_5.index t (0 : Fin 2) * 10000)
    (fun y => rfl) (fun y => rfl) (wl_whole V c t) (wr_whole V c t) (bias_whole V c t)
    (fun y => by show win1_0.index t (0 : Fin 2) * 10000 + 1 * (y 0).val = _; omega)
    (fun y => by show win1_0.index t (1 : Fin 2) * 64 + 1 * (y 1).val = _; omega)
    (fun y => by show win1_1.index t (0 : Fin 2) * 10000 + 1 * (y 0).val = _; omega)
    (fun y => by show win1_1.index t (1 : Fin 2) * 64 + 1 * (y 1).val = _; omega)
    (fun y => by show win1_5.index t (0 : Fin 2) * 10000 + 1 * (y 0).val = _; omega)
    (fun y => by show win1_5.index t (1 : Fin 2) * 64 + 1 * (y 1).val = _; omega)
    hh hz j

/-- A row is in grid point t's block when it lies in rows 10000·t, …, 10000·t + 9999. -/
theorem mem_block (t : Fin cfg1.N) (i : S200000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v55).slice (win1_5.rect t)).set ↔ _
  rw [View.set_slice_whole, Rect.mem_set_unit]
  exact Iff.rfl

/-- The blocks tile the array: row r is in block r / 10000. -/
theorem cover (i : S200000x64.Idx) : ∃ t : Fin cfg1.N, (cfg1.win 5).flush t = true ∧ i ∈ ((cfg1.win 5).blk t).view.set := by
  have hi0 : (i 0).val < 200000 := (i 0).isLt
  have hi1 : (i 1).val < 64 := (i 1).isLt
  obtain ⟨t, ht⟩ := index_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After the region its result array is the whole-array layer of the arrays the region found. -/
theorem array_eq (c : Dev nD)
    (hh : S1x64.BroadcastsInDim S200000x64 (![0, 1] : Fin 2 → Fin 2))
    (hz : S_.BroadcastsInDim S200000x64 (![] : Fin 0 → Fin 2)) :
    (dat1 (F := Ideal) V c).arrAt 5 cfg1.N
      = maximumf (addf (addf (Host.dotGeneral (F := Ideal) (φ₁ := .f32) (φ₂ := .f32) (DotDims.plain 200000 64 64) none (V c main_v47) (V c main_v49)) (broadcastInDim S200000x64 ![0, 1] hh (V c main_v54))) (Host.dotGeneral (F := Ideal) (φ₁ := .f32) (φ₂ := .f32) (DotDims.plain 200000 64 64) none (V c main_arg0) (V c main_v53))) (broadcastInDim S200000x64 ![] hz (constant (F := Ideal) S_ .f32 0x00000000#32)) :=
  (dat1 (F := Ideal) V c).arrAt_eq_of_cover 5 _ (fun t _ => flushed_eq V c t hh hz) cover

end Cert.KernelIdeal.SageRegion1

end
-- ==== Proof.SageRegion2.lean ====
/-
  Region 2 of the idealized kernel program: one graph-convolution layer over 50000 rows, 5 blocks of 10000 rows.

  Grid point t loads rows 10000·t, …, 10000·t + 9999 of the aggregated-neighbour array and of the node-feature array, the
  two 64×64 weight matrices and the bias row whole, and stores the layer's value on those rows, rectified. The 5 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k2_pay1 (F := Ideal) x0 x3 x5 x8 x12 = maximumf (addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32))) (broadcast S10000x64 (Scalar.ofBits (F := Ideal) .f32 0x00000000#32)) := by
  unfold k2_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S50000x64 .f32) (WL WR : FVec Ideal S64x64 .f32) (B : FVec Ideal S1x64 .f32)
    (ea eh eo : S10000x64.Idx → S50000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S50000x64 (![0, 1] : Fin 2 → Fin 2))
    (hz : S_.BroadcastsInDim S50000x64 (![] : Fin 0 → Fin 2))
    (j : S10000x64.Idx) :
    k2_pay1 (F := Ideal) xa xh xwl xwr xb j = maximumf (addf (addf (Host.dotGeneral (F := Ideal) (φ₁ := .f32) (φ₂ := .f32) (DotDims.plain 50000 64 64) none A WL) (broadcastInDim S50000x64 ![0, 1] hh B)) (Host.dotGeneral (F := Ideal) (φ₁ := .f32) (φ₂ := .f32) (DotDims.plain 50000 64 64) none H WR)) (broadcastInDim S50000x64 ![] hz (constant (F := Ideal) S_ .f32 0x00000000#32)) (eo j) := by
  subst hwl hwr hb
  rw [payload_eq]
  exact Cert.Sage.relu_layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh 0x00000000#32 hz j

/-- The printed index maps over the grid: the row-blocked windows move with the output, the others stay at the origin. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every block of rows is some grid point's. -/
theorem index_onto : ∀ q : Fin 5, ∃ t : Fin cfg2.N, win2_5.index t = ![q.val, 0] :=
  (by decide +kernel : ∀ q : Fin 5, ∃ t : Fin grid2.N, win2_5.index t = ![q.val, 0])

theorem wl_whole (c : Dev nD) (t : Fin cfg2.N) : iblk2 V c 2 t = V c main_v76 := by
  obtain ⟨-, -, -, -, e0, e1, -⟩ := index_facts t
  funext y
  show V c main_v76 (((cfg2.win 2).blk t).view.emb y) = V c main_v76 y
  refine congrArg (V c main_v76) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem bias_whole (c : Dev nD) (t : Fin cfg2.N) : iblk2 V c 3 t = V c main_v81 := by
  obtain ⟨-, -, -, -, -, -, e0, e1, -⟩ := index_facts t
  funext y
  show V c main_v81 (((cfg2.win 3).blk t).view.emb y) = V c main_v81 y
  refine congrArg (V c main_v81) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem wr_whole (c : Dev nD) (t : Fin cfg2.N) : iblk2 V c 4 t = V c main_v80 := by
  obtain ⟨-, -, -, -, -, -, -, -, e0, e1, -⟩ := index_facts t
  funext y
  show V c main_v80 (((cfg2.win 4).blk t).view.emb y) = V c main_v80 y
  refine congrArg (V c main_v80) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- What grid point t writes back is block t of the whole-array layer of the arrays the region found. -/
theorem flushed_eq (c : Dev nD) (t : Fin cfg2.N)
    (hh : S1x64.BroadcastsInDim S50000x64 (![0, 1] : Fin 2 → Fin 2))
    (hz : S_.BroadcastsInDim S50000x64 (![] : Fin 0 → Fin 2)) :
    (dat2 (F := Ideal) V c).flushed 5 t = ((cfg2.win 5).blk t).view.read (Elt Ideal)
      (maximumf (addf (addf (Host.dotGeneral (F := Ideal) (φ₁ := .f32) (φ₂ := .f32) (DotDims.plain 50000 64 64) none (V c main_v74) (V c main_v76)) (broadcastInDim S50000x64 ![0, 1] hh (V c main_v81))) (Host.dotGeneral (F := Ideal) (φ₁ := .f32) (φ₂ := .f32) (DotDims.plain 50000 64 64) none (V c main_v28) (V c main_v80))) (broadcastInDim S50000x64 ![] hz (constant (F := Ideal) S_ .f32 0x00000000#32))) := by
  show (cfg2.win 5).cut (grid2.coords t) ((dat2 V c).after 5 t) = _
  rw [after2_5]
  unfold out2_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk2 V c 0 t) (iblk2 V c 1 t) (iblk2 V c 2 t) (iblk2 V c 4 t) (iblk2 V c 3 t)
    (V c main_v74) (V c main_v28) (V c main_v76) (V c main_v80) (V c main_v81)
    (((cfg2.win 0).blk t).view.emb) (((cfg2.win 1).blk t).view.emb) (((cfg2.win 5).blk t).view.emb)
    (win2_5.index t (0 : Fin 2) * 10000)
    (fun y => rfl) (fun y => rfl) (wl_whole V c t) (wr_whole V c t) (bias_whole V c t)
    (fun y => by show win2_0.index t (0 : Fin 2) * 10000 + 1 * (y 0).val = _; omega)
    (fun y => by show win2_0.index t (1 : Fin 2) * 64 + 1 * (y 1).val = _; omega)
    (fun y => by show win2_1.index t (0 : Fin 2) * 10000 + 1 * (y 0).val = _; omega)
    (fun y => by show win2_1.index t (1 : Fin 2) * 64 + 1 * (y 1).val = _; omega)
    (fun y => by show win2_5.index t (0 : Fin 2) * 10000 + 1 * (y 0).val = _; omega)
    (fun y => by show win2_5.index t (1 : Fin 2) * 64 + 1 * (y 1).val = _; omega)
    hh hz j

/-- A row is in grid point t's block when it lies in rows 10000·t, …, 10000·t + 9999. -/
theorem mem_block (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v82).slice (win2_5.rect t)).set ↔ _
  rw [View.set_slice_whole, Rect.mem_set_unit]
  exact Iff.rfl

/-- The blocks tile the array: row r is in block r / 10000. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := index_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- After the region its result array is the whole-array layer of the arrays the region found. -/
theorem array_eq (c : Dev nD)
    (hh : S1x64.BroadcastsInDim S50000x64 (![0, 1] : Fin 2 → Fin 2))
    (hz : S_.BroadcastsInDim S50000x64 (![] : Fin 0 → Fin 2)) :
    (dat2 (F := Ideal) V c).arrAt 5 cfg2.N
      = maximumf (addf (addf (Host.dotGeneral (F := Ideal) (φ₁ := .f32) (φ₂ := .f32) (DotDims.plain 50000 64 64) none (V c main_v74) (V c main_v76)) (broadcastInDim S50000x64 ![0, 1] hh (V c main_v81))) (Host.dotGeneral (F := Ideal) (φ₁ := .f32) (φ₂ := .f32) (DotDims.plain 50000 64 64) none (V c main_v28) (V c main_v80))) (broadcastInDim S50000x64 ![] hz (constant (F := Ideal) S_ .f32 0x00000000#32)) :=
  (dat2 (F := Ideal) V c).arrAt_eq_of_cover 5 _ (fun t _ => flushed_eq V c t hh hz) cover

end Cert.KernelIdeal.SageRegion2

end
-- ==== Proof.SageRegion3.lean ====
/-
  Region 3 of the idealized kernel program: one graph-convolution layer over 200000 rows, 20 blocks of 10000 rows.

  Grid point t loads rows 10000·t, …, 10000·t + 9999 of the aggregated-neighbour array and of the node-feature array, the
  two 64×64 weight matrices and the bias row whole, and stores the layer's value on those rows, rectified. The 20 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k3_pay1 (F := Ideal) x0 x3 x5 x8 x12 = maximumf (addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32))) (broadcast S10000x64 (Scalar.ofBits (F := Ideal) .f32 0x00000000#32)) := by
  unfold k3_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S200000x64 .f32) (WL WR : FVec Ideal S64x64 .f32) (B : FVec Ideal S1x64 .f32)
    (ea eh eo : S10000x64.Idx → S200000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S200000x64 (![0, 1] : Fin 2 → Fin 2))
    (hz : S_.BroadcastsInDim S200000x64 (![] : Fin 0 → Fin 2))
    (j : S10000x64.Idx) :
    k3_pay1 (F := Ideal) xa xh xwl xwr xb j = maximumf (addf (addf (Host.dotGeneral (F := Ideal) (φ₁ := .f32) (φ₂ := .f32) (DotDims.plain 200000 64 64) none A WL) (broadcastInDim S200000x64 ![0, 1] hh B)) (Host.dotGeneral (F := Ideal) (φ₁ := .f32) (φ₂ := .f32) (DotDims.plain 200000 64 64) none H WR)) (broadcastInDim S200000x64 ![] hz (constant (F := Ideal) S_ .f32 0x00000000#32)) (eo j) := by
  subst hwl hwr hb
  rw [payload_eq]
  exact Cert.Sage.relu_layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh 0x00000000#32 hz j

/-- The printed index maps over the grid: the row-blocked windows move with the output, the others stay at the origin. -/
theorem index_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 :=
  (by decide +kernel : ∀ t : Fin grid3.N, _)

/-- Every block of rows is some grid point's. -/
theorem index_onto : ∀ q : Fin 20, ∃ t : Fin cfg3.N, win3_5.index t = ![q.val, 0] :=
  (by decide +kernel : ∀ q : Fin 20, ∃ t : Fin grid3.N, win3_5.index t = ![q.val, 0])

theorem wl_whole (c : Dev nD) (t : Fin cfg3.N) : iblk3 V c 2 t = V c main_v103 := by
  obtain ⟨-, -, -, -, e0, e1, -⟩ := index_facts t
  funext y
  show V c main_v103 (((cfg3.win 2).blk t).view.emb y) = V c main_v103 y
  refine congrArg (V c main_v103) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

theorem bias_whole (c : Dev nD) (t : Fin cfg3.N) : iblk3 V c 3 t = V c main_v108 := by
  obtain ⟨-, -, -, -, -, -, e0, e1, -⟩ := index_facts t
  funext y
  show V c main_v108 (((cfg3.win 3).blk t).view.emb y) = V c main_v108 y
  refine congrArg (V c main_v108) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem wr_whole (c : Dev nD) (t : Fin cfg3.N) : iblk3 V c 4 t = V c main_v107 := by
  obtain ⟨-, -, -, -, -, -, -, -, e0, e1, -⟩ := index_facts t
  funext y
  show V c main_v107 (((cfg3.win 4).blk t).view.emb y) = V c main_v107 y
  refine congrArg (V c main_v107) (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- What grid point t writes back is block t of the whole-array layer of the arrays the region found. -/
theorem flushed_eq (c : Dev nD) (t : Fin cfg3.N)
    (hh : S1x64.BroadcastsInDim S200000x64 (![0, 1] : Fin 2 → Fin 2))
    (hz : S_.BroadcastsInDim S200000x64 (![] : Fin 0 → Fin 2)) :
    (dat3 (F := Ideal) V c).flushed 5 t = ((cfg3.win 5).blk t).view.read (Elt Ideal)
      (maximumf (addf (addf (Host.dotGeneral (F := Ideal) (φ₁ := .f32) (φ₂ := .f32) (DotDims.plain 200000 64 64) none (V c main_v101) (V c main_v103)) (broadcastInDim S200000x64 ![0, 1] hh (V c main_v108))) (Host.dotGeneral (F := Ideal) (φ₁ := .f32) (φ₂ := .f32) (DotDims.plain 200000 64 64) none (V c main_v55) (V c main_v107))) (broadcastInDim S200000x64 ![] hz (constant (F := Ideal) S_ .f32 0x00000000#32))) := by
  show (cfg3.win 5).cut (grid3.coords t) ((dat3 V c).after 5 t) = _
  rw [after3_5]
  unfold out3_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk3 V c 0 t) (iblk3 V c 1 t) (iblk3 V c 2 t) (iblk3 V c 4 t) (iblk3 V c 3 t)
    (V c main_v101) (V c main_v55) (V c main_v103) (V c main_v107) (V c main_v108)
    (((cfg3.win 0).blk t).view.emb) (((cfg3.win 1).blk t).view.emb) (((cfg3.win 5).blk t).view.emb)
    (win3_5.index t (0 : Fin 2) * 10000)
    (fun y => rfl) (fun y => rfl) (wl_whole V c t) (wr_whole V c t) (bias_whole V c t)
    (fun y => by show win3_0.index t (0 : Fin 2) * 10000 + 1 * (y 0).val = _; omega)
    (fun y => by show win3_0.index t (1 : Fin 2) * 64 + 1 * (y 1).val = _; omega)
    (fun y => by show win3_1.index t (0 : Fin 2) * 10000 + 1 * (y 0).val = _; omega)
    (fun y => by show win3_1.index t (1 : Fin 2) * 64 + 1 * (y 1).val = _; omega)
    (fun y => by show win3_5.index t (0 : Fin 2) * 10000 + 1 * (y 0).val = _; omega)
    (fun y => by show win3_5.index t (1 : Fin 2) * 64 + 1 * (y 1).val = _; omega)
    hh hz j

/-- A row is in grid point t's block when it lies in rows 10000·t, …, 10000·t + 9999. -/
theorem mem_block (t : Fin cfg3.N) (i : S200000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v109).slice (win3_5.rect t)).set ↔ _
  rw [View.set_slice_whole, Rect.mem_set_unit]
  exact Iff.rfl

/-- The blocks tile the array: row r is in block r / 10000. -/
theorem cover (i : S200000x64.Idx) : ∃ t : Fin cfg3.N, (cfg3.win 5).flush t = true ∧ i ∈ ((cfg3.win 5).blk t).view.set := by
  have hi0 : (i 0).val < 200000 := (i 0).isLt
  have hi1 : (i 1).val < 64 := (i 1).isLt
  obtain ⟨t, ht⟩ := index_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_block]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- After the region its result array is the whole-array layer of the arrays the region found. -/
theorem array_eq (c : Dev nD)
    (hh : S1x64.BroadcastsInDim S200000x64 (![0, 1] : Fin 2 → Fin 2))
    (hz : S_.BroadcastsInDim S200000x64 (![] : Fin 0 → Fin 2)) :
    (dat3 (F := Ideal) V c).arrAt 5 cfg3.N
      = maximumf (addf (addf (Host.dotGeneral (F := Ideal) (φ₁ := .f32) (φ₂ := .f32) (DotDims.plain 200000 64 64) none (V c main_v101) (V c main_v103)) (broadcastInDim S200000x64 ![0, 1] hh (V c main_v108))) (Host.dotGeneral (F := Ideal) (φ₁ := .f32) (φ₂ := .f32) (DotDims.plain 200000 64 64) none (V c main_v55) (V c main_v107))) (broadcastInDim S200000x64 ![] hz (constant (F := Ideal) S_ .f32 0x00000000#32)) :=
  (dat3 (F := Ideal) V c).arrAt_eq_of_cover 5 _ (fun t _ => flushed_eq V c t hh hz) cover

end Cert.KernelIdeal.SageRegion3

end
-- ==== Proof.SageRegion4.lean ====
/-
  Region 4 of the idealized kernel program: one graph-convolution layer over 50000 rows, 5 blocks of 10000 rows.

  Grid point t loads rows 10000·t, …, 10000·t + 9999 of the aggregated-neighbour array and of the node-feature array, the
  two 64×64 weight matrices and the bias row whole, and stores the layer's value on those rows. The 5 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k4_pay1 (F := Ideal) x0 x3 x5 x8 x12 = addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32)) := by
  unfold k4_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S50000x64 .f32) (WL WR : FVec Ideal S64x64 .f32) (B : FVec Ideal S1x64 .f32)
    (ea eh eo : S10000x64.Idx → S50000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S50000x64 (![0, 1] : Fin 2 → Fin 2))
    (j : S10000x64.Idx) :
    k4_pay1 (F := Ideal) xa xh xwl xwr xb j = addf (addf (Host.dotGeneral (F := Ideal) (φ₁ := .f32) (φ₂ := .f32) (DotDims.plain 50000 64 64) none A WL) (broadcastInDim S50000x64 ![0, 1] hh B)) (Host.dotGeneral (F := Ideal) (φ₁ := .f32) (φ₂ := .f32) (DotDims.plain 50000 64 64) none H WR) (eo j) := by
  subst hwl hwr hb
  rw [payload_eq]
  exact Cert.Sage.layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh j

/-- The printed index maps over the grid: the row-blocked windows move with the output, the others stay at the origin. -/
theorem index_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 :=
  (by decide +kernel : ∀ t : Fin grid4.N, _)

/-- Every block of rows is some grid point's. -/
theorem index_onto : ∀ q : Fin 5, ∃ t : Fin cfg4.N, win4_5.index t = ![q.val, 0] :=
  (by decide +kernel : ∀ q : Fin 5, ∃ t : Fin grid4.N, win4_5.index t = ![q.val, 0])

theorem wl_whole (c : Dev nD) (t : Fin cfg4.N) : iblk4 V c 2 t = V c main_v130 := by
  obtain ⟨-, -, -, -, e0, e1, -⟩ := index_facts t
  funext y
  show V c main_v130 (((cfg4.win 2).blk t).view.emb y) = V c main_v130 y
  refine congrArg (V c main_v130) (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

theorem bias_whole (c : Dev nD) (t : Fin cfg4.N) : iblk4 V c 3 t = V c main_v135 := by
  obtain ⟨-, -, -, -, -, -, e0, e1, -⟩ := index_facts t
  funext y
  show V c main_v135 (((cfg4.win 3).blk t).view.emb y) = V c main_v135 y
  refine congrArg (V c main_v135) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

theorem wr_whole (c : Dev nD) (t : Fin cfg4.N) : iblk4 V c 4 t = V c main_v134 := by
  obtain ⟨-, -, -, -, -, -, -, -, e0, e1, -⟩ := index_facts t
  funext y
  show V c main_v134 (((cfg4.win 4).blk t).view.emb y) = V c main_v134 y
  refine congrArg (V c main_v134) (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- What grid point t writes back is block t of the whole-array layer of the arrays the region found. -/
theorem flushed_eq (c : Dev nD) (t : Fin cfg4.N)
    (hh : S1x64.BroadcastsInDim S50000x64 (![0, 1] : Fin 2 → Fin 2)) :
    (dat4 (F := Ideal) V c).flushed 5 t = ((cfg4.win 5).blk t).view.read (Elt Ideal)
      (addf (addf (Host.dotGeneral (F := Ideal) (φ₁ := .f32) (φ₂ := .f32) (DotDims.plain 50000 64 64) none (V c main_v128) (V c main_v130)) (broadcastInDim S50000x64 ![0, 1] hh (V c main_v135))) (Host.dotGeneral (F := Ideal) (φ₁ := .f32) (φ₂ := .f32) (DotDims.plain 50000 64 64) none (V c main_v82) (V c main_v134))) := by
  show (cfg4.win 5).cut (grid4.coords t) ((dat4 V c).after 5 t) = _
  rw [after4_5]
  unfold out4_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk4 V c 0 t) (iblk4 V c 1 t) (iblk4 V c 2 t) (iblk4 V c 4 t) (iblk4 V c 3 t)
    (V c main_v128) (V c main_v82) (V c main_v130) (V c main_v134) (V c main_v135)
    (((cfg4.win 0).blk t).view.emb) (((cfg4.win 1).blk t).view.emb) (((cfg4.win 5).blk t).view.emb)
    (win4_5.index t (0 : Fin 2) * 10000)
    (fun y => rfl) (fun y => rfl) (wl_whole V c t) (wr_whole V c t) (bias_whole V c t)
    (fun y => by show win4_0.index t (0 : Fin 2) * 10000 + 1 * (y 0).val = _; omega)
    (fun y => by show win4_0.index t (1 : Fin 2) * 64 + 1 * (y 1).val = _; omega)
    (fun y => by show win4_1.index t (0 : Fin 2) * 10000 + 1 * (y 0).val = _; omega)
    (fun y => by show win4_1.index t (1 : Fin 2) * 64 + 1 * (y 1).val = _; omega)
    (fun y => by show win4_5.index t (0 : Fin 2) * 10000 + 1 * (y 0).val = _; omega)
    (fun y => by show win4_5.index t (1 : Fin 2) * 64 + 1 * (y 1).val = _; omega)
    hh j

/-- A row is in grid point t's block when it lies in rows 10000·t, …, 10000·t + 9999. -/
theorem mem_block (t : Fin cfg4.N) (i : S50000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v136).slice (win4_5.rect t)).set ↔ _
  rw [View.set_slice_whole, Rect.mem_set_unit]
  exact Iff.rfl

/-- The blocks tile the array: row r is in block r / 10000. -/
theorem cover (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  obtain ⟨t, ht⟩ := index_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- After the region its result array is the whole-array layer of the arrays the region found. -/
theorem array_eq (c : Dev nD)
    (hh : S1x64.BroadcastsInDim S50000x64 (![0, 1] : Fin 2 → Fin 2)) :
    (dat4 (F := Ideal) V c).arrAt 5 cfg4.N
      = addf (addf (Host.dotGeneral (F := Ideal) (φ₁ := .f32) (φ₂ := .f32) (DotDims.plain 50000 64 64) none (V c main_v128) (V c main_v130)) (broadcastInDim S50000x64 ![0, 1] hh (V c main_v135))) (Host.dotGeneral (F := Ideal) (φ₁ := .f32) (φ₂ := .f32) (DotDims.plain 50000 64 64) none (V c main_v82) (V c main_v134)) :=
  (dat4 (F := Ideal) V c).arrAt_eq_of_cover 5 _ (fun t _ => flushed_eq V c t hh) cover

end Cert.KernelIdeal.SageRegion4

end
-- ==== Proof.SageRegion5.lean ====
/-
  Region 5 of the idealized kernel program: one graph-convolution layer over 200000 rows, 20 blocks of 10000 rows.

  Grid point t loads rows 10000·t, …, 10000·t + 9999 of the aggregated-neighbour array and of the node-feature array, the
  two 64×64 weight matrices and the bias row whole, and stores the layer's value on those rows. The 20 blocks tile
  the result array, so after the region the array is the host's whole-array layer of the arrays the region found, whatever
  those are.
-/
import proofs.«162854_j13142599925848_1_alg».proof.Proof.Gen.KernelIdeal.Frame
import proofs.«162854_j13142599925848_1_alg».proof.Proof.LibRoundedConvBlock

set_option maxRecDepth 16384

noncomputable section

namespace Cert.KernelIdeal.SageRegion5

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on its loaded blocks: both products into zero accumulators, operands rounded to bf16. -/
theorem payload_eq (x0 x3 : Vec Ideal S10000x64 .f32) (x5 x8 : Vec Ideal S64x64 .f32) (x12 : Vec Ideal S1x64 .f32) :
    k5_pay1 (F := Ideal) x0 x3 x5 x8 x12 = addf (addf (matmul (DotDims.plain 10000 64 64) none (truncf .bf16 x0 bitsLt_bf16_f32) (truncf .bf16 x5 bitsLt_bf16_f32) (constant S10000x64 .f32 0x00000000#32)) (broadcastTo S10000x64 x12 broadcasts_S1x64_S10000x64)) (matmul (DotDims.plain 10000 64 64) none (truncf .bf16 x3 bitsLt_bf16_f32) (truncf .bf16 x8 bitsLt_bf16_f32) (constant S10000x64 .f32 0x00000000#32)) := by
  unfold k5_pay1
  simp only [shapeCast_self]
  rfl

/-- The layer on a block of rows shifted by `off`, read at a block index, is the whole-array layer at the shifted row. -/
theorem block_value (xa xh : Vec Ideal S10000x64 .f32) (xwl xwr : Vec Ideal S64x64 .f32) (xb : Vec Ideal S1x64 .f32)
    (A H : FVec Ideal S200000x64 .f32) (WL WR : FVec Ideal S64x64 .f32) (B : FVec Ideal S1x64 .f32)
    (ea eh eo : S10000x64.Idx → S200000x64.Idx) (off : Nat)
    (hxa : ∀ y, xa y = A (ea y)) (hxh : ∀ y, xh y = H (eh y)) (hwl : xwl = WL) (hwr : xwr = WR) (hb : xb = B)
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hh : S1x64.BroadcastsInDim S200000x64 (![0, 1] : Fin 2 → Fin 2))
    (j : S10000x64.Idx) :
    k5_pay1 (F := Ideal) xa xh xwl xwr xb j = addf (addf (Host.dotGeneral (F := Ideal) (φ₁ := .f32) (φ₂ := .f32) (DotDims.plain 200000 64 64) none A WL) (broadcastInDim S200000x64 ![0, 1] hh B)) (Host.dotGeneral (F := Ideal) (φ₁ := .f32) (φ₂ := .f32) (DotDims.plain 200000 64 64) none H WR) (eo j) := by
  subst hwl hwr hb
  rw [payload_eq]
  exact Cert.Sage.layer_block xa xh xwl xwr xb A H ea eh eo off hxa hxh hea0 hea1 heh0 heh1 heo0 heo1
    bitsLt_bf16_f32 bitsLt_bf16_f32 bitsLt_bf16_f32 bitsLt_bf16_f32 broadcasts_S1x64_S10000x64 hh j

/-- The printed index maps over the grid: the row-blocked windows move with the output, the others stay at the origin. -/
theorem index_facts : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 :=
  (by decide +kernel : ∀ t : Fin grid5.N, _)

/-- Every block of rows is some grid point's. -/
theorem index_onto : ∀ q : Fin 20, ∃ t : Fin cfg5.N, win5_5.index t = ![q.val, 0] :=
  (by decide +kernel : ∀ q : Fin 20, ∃ t : Fin grid5.N, win5_5.index t = ![q.val, 0])

theorem wl_whole (c : Dev nD) (t : Fin cfg5.N) : iblk5 V c 2 t = V c main_v157 := by
  obtain ⟨-, -, -, -, e0, e1, -⟩ := index_facts t
  funext y
  show V c main_v157 (((cfg5.win 2).blk t).view.emb y) = V c main_v157 y
  refine congrArg (V c main_v157) (funext fun a => Fin.ext ?_)
  match a with
  | ⟨0, _⟩ => show win5_2.index t (0 : Fin 2) * 64 + 1 * (y 0).val = (y 0).val; omega
  | ⟨1, _⟩ => show win5_2.index t (1 : Fin 2) * 64 + 1 * (y 1).val = (y 1).val; omega

theorem bias_whole (c : Dev nD) (t : Fin cfg5.N) : iblk5 V c 3 t = V c main_v162 := by
  obtain ⟨-, -, -, -, -, -, e0, e1, -⟩ := index_facts t
  funext y
  show V c main_v162 (((cfg5.win 3).blk t).view.emb y) = V c main_v162 y
  refine congrArg (V c main_v162) (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

theorem wr_whole (c : Dev nD) (t : Fin cfg5.N) : iblk5 V c 4 t = V c main_v161 := by
  obtain ⟨-, -, -, -, -, -, -, -, e0, e1, -⟩ := index_facts t
  funext y
  show V c main_v161 (((cfg5.win 4).blk t).view.emb y) = V c main_v161 y
  refine congrArg (V c main_v161) (funext fun a => Fin.ext ?_)
  match a with
  | ⟨0, _⟩ => show win5_4.index t (0 : Fin 2) * 64 + 1 * (y 0).val = (y 0).val; omega
  | ⟨1, _⟩ => show win5_4.index t (1 : Fin 2) * 64 + 1 * (y 1).val = (y 1).val; omega

/-- What grid point t writes back is block t of the whole-array layer of the arrays the region found. -/
theorem flushed_eq (c : Dev nD) (t : Fin cfg5.N)
    (hh : S1x64.BroadcastsInDim S200000x64 (![0, 1] : Fin 2 → Fin 2)) :
    (dat5 (F := Ideal) V c).flushed 5 t = ((cfg5.win 5).blk t).view.read (Elt Ideal)
      (addf (addf (Host.dotGeneral (F := Ideal) (φ₁ := .f32) (φ₂ := .f32) (DotDims.plain 200000 64 64) none (V c main_v155) (V c main_v157)) (broadcastInDim S200000x64 ![0, 1] hh (V c main_v162))) (Host.dotGeneral (F := Ideal) (φ₁ := .f32) (φ₂ := .f32) (DotDims.plain 200000 64 64) none (V c main_v109) (V c main_v161))) := by
  show (cfg5.win 5).cut (grid5.coords t) ((dat5 V c).after 5 t) = _
  rw [after5_5]
  unfold out5_5
  rw [View.canon_unit_zero origin]
  simp only [View.ld_unit_zero (S := S10000x64) origin, View.ld_unit_zero (S := S64x64) origin, View.ld_unit_zero (S := S1x64) origin]
  obtain ⟨e00, e01, e10, e11, -, -, -, -, -, -, e51⟩ := index_facts t
  funext j
  exact block_value (iblk5 V c 0 t) (iblk5 V c 1 t) (iblk5 V c 2 t) (iblk5 V c 4 t) (iblk5 V c 3 t)
    (V c main_v155) (V c main_v109) (V c main_v157) (V c main_v161) (V c main_v162)
    (((cfg5.win 0).blk t).view.emb) (((cfg5.win 1).blk t).view.emb) (((cfg5.win 5).blk t).view.emb)
    (win5_5.index t (0 : Fin 2) * 10000)
    (fun y => rfl) (fun y => rfl) (wl_whole V c t) (wr_whole V c t) (bias_whole V c t)
    (fun y => by show win5_0.index t (0 : Fin 2) * 10000 + 1 * (y 0).val = _; omega)
    (fun y => by show win5_0.index t (1 : Fin 2) * 64 + 1 * (y 1).val = _; omega)
    (fun y => by show win5_1.index t (0 : Fin 2) * 10000 + 1 * (y 0).val = _; omega)
    (fun y => by show win5_1.index t (1 : Fin 2) * 64 + 1 * (y 1).val = _; omega)
    (fun y => by show win5_5.index t (0 : Fin 2) * 10000 + 1 * (y 0).val = _; omega)
    (fun y => by show win5_5.index t (1 : Fin 2) * 64 + 1 * (y 1).val = _; omega)
    hh j

/-- A row is in grid point t's block when it lies in rows 10000·t, …, 10000·t + 9999. -/
theorem mem_block (t : Fin cfg5.N) (i : S200000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v163).slice (win5_5.rect t)).set ↔ _
  rw [View.set_slice_whole, Rect.mem_set_unit]
  exact Iff.rfl

/-- The blocks tile the array: row r is in block r / 10000. -/
theorem cover (i : S200000x64.Idx) : ∃ t : Fin cfg5.N, (cfg5.win 5).flush t = true ∧ i ∈ ((cfg5.win 5).blk t).view.set := by
  have hi0 : (i 0).val < 200000 := (i 0).isLt
  have hi1 : (i 1).val < 64 := (i 1).isLt
  obtain ⟨t, ht⟩ := index_onto ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_block]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- After the region its result array is the whole-array layer of the arrays the region found. -/
theorem array_eq (c : Dev nD)
    (hh : S1x64.BroadcastsInDim S200000x64 (![0, 1] : Fin 2 → Fin 2)) :
    (dat5 (F := Ideal) V c).arrAt 5 cfg5.N
      = addf (addf (Host.dotGeneral (F := Ideal) (φ₁ := .f32) (φ₂ := .f32) (DotDims.plain 200000 64 64) none (V c main_v155) (V c main_v157)) (broadcastInDim S200000x64 ![0, 1] hh (V c main_v162))) (Host.dotGeneral (F := Ideal) (φ₁ := .f32) (φ₂ := .f32) (DotDims.plain 200000 64 64) none (V c main_v109) (V c main_v161)) :=
  (dat5 (F := Ideal) V c).arrAt_eq_of_cover 5 _ (fun t _ => flushed_eq V c t hh) cover

end Cert.KernelIdeal.SageRegion5

end
-- ==== Proof.LibPerceptronThree.lean ====
/-
  A block of rows of a three-layer perceptron, over the extended reals.

  The perceptron is Y = max(max(X · W₁ + B₁, z) · W₂ + B₂, z) · W₃ + B₃, where each Bᵢ repeats one bias row over all rows and z
  is one constant spread over the array. Row r of Y depends on row r of X and on all of the weights and bias rows only: rows
  off, …, off + m - 1 of each layer's activations are that layer applied to the same rows of the layer before. So a kernel that
  computes one block of m rows at a time — each product accumulated into zero, each bias row repeated over the block's rows,
  the operands narrowed before each product — writes, block by block, the host's whole-array perceptron: at a block index j its
  value is Y read where the result block puts j. Narrowing is the identity on extended reals, addition is never reordered, and
  nothing is assumed finite. How the first and the last block sit in their arrays is left to index maps of which only the
  coordinates are assumed (rows shifted by `off`, columns kept); the two hidden blocks sit at the same rows.
-/
import proofs.«162854_j13142599925848_1_alg».proof.Proof.LibConvBlock

noncomputable section

namespace Cert.KernelIdeal.Decoder

open Idealize.ShloMosaic Idealize.ShloMosaic.ValueIdx Cert.Lib

/-- Narrowing is the identity on extended reals and the exact product does not look at its operands' formats: a product of
    narrowed operands is the product of the operands. -/
theorem matmul_truncf {sl sr so : Shape} {φ₁ φ₂ ψ₁ ψ₂ : FTy} (d : DotDims sl sr so) (prec : Option ContractPrecision)
    (a : FVec Ideal sl φ₁) (b : FVec Ideal sr φ₂) (h₁ : ψ₁.bits < φ₁.bits) (h₂ : ψ₂.bits < φ₂.bits) (acc : FVec Ideal so .f32) :
    matmul d prec (truncf ψ₁ a h₁) (truncf ψ₂ b h₂) acc = matmul d prec a b acc := rfl

/-- Where the block of rows `off, …, off + m - 1` of an `[M, n]` array puts a block index: the row shifted by `off`, the
    column kept. -/
def rowShift {m M : Nat} (n off : Nat) (h : off + m ≤ M) (y : (⟨2, ![m, n]⟩ : Shape).Idx) : (⟨2, ![M, n]⟩ : Shape).Idx :=
  ix2 (⟨off + (y 0).val, by have := idx2_lt0 y; omega⟩ : Fin M) (⟨(y 1).val, idx2_lt1 y⟩ : Fin n)

/-- The rectified linear layer: max(x · w + bias row, z) on an m-row block against a splat of the constant `z`, the product
    accumulated into zero, read at a block index `j`, is the host's max of X · w + bias row and its spread of `z`, read where
    the result block puts `j`. -/
theorem linear_relu_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (matmul (DotDims.plain m k n) prec x w (constant ⟨2, ![m, n]⟩ .f32 0x00000000#32))
          (broadcastTo ⟨2, ![m, n]⟩ brow hk))
        (broadcast ⟨2, ![m, n]⟩ (Scalar.ofBits (F := Ideal) .f32 z)) j
      = maximumf (addf (Host.dotGeneral (DotDims.plain M k n) prec X w) (broadcastInDim ⟨2, ![M, n]⟩ ![0, 1] hh brow))
          (broadcastInDim ⟨2, ![M, n]⟩ ![] hz (constant ⟨0, ![]⟩ .f32 z)) (eo j) := by
  rw [maximumf_apply, maximumf_apply, linear_row_block prec x w brow X ex eo off hx hex0 hex1 heo0 heo1 hk hh j, splat_apply]
  rfl

/-- Three layers on an m-row block: max(max(x · w₁ + b₁, z) · w₂ + b₂, z) · w₃ + b₃, every product accumulated into zero and every
    bias row repeated over the block's rows, read at a block index `j`, is the host's whole-array perceptron of `X` read where the
    result block puts `j`. Each layer's block of activations is the same rows of the host's activations, so the layers chain: the
    first two through the row shift, the last into the result block's own index map. -/
theorem mlp_row_block {m M k n₁ n₂ n₃ : Nat} {φ₀ φ₁ φ₂ φ₃ : FTy} (prec : Option ContractPrecision)
    (x : FVec Ideal ⟨2, ![m, k]⟩ φ₀) (X : FVec Ideal ⟨2, ![M, k]⟩ φ₀)
    (w₁ : FVec Ideal ⟨2, ![k, n₁]⟩ φ₁) (b₁ : FVec Ideal ⟨2, ![1, n₁]⟩ .f32)
    (w₂ : FVec Ideal ⟨2, ![n₁, n₂]⟩ φ₂) (b₂ : FVec Ideal ⟨2, ![1, n₂]⟩ .f32)
    (w₃ : FVec Ideal ⟨2, ![n₂, n₃]⟩ φ₃) (b₃ : FVec Ideal ⟨2, ![1, n₃]⟩ .f32)
    (ex : (⟨2, ![m, k]⟩ : Shape).Idx → (⟨2, ![M, k]⟩ : Shape).Idx)
    (eo : (⟨2, ![m, n₃]⟩ : Shape).Idx → (⟨2, ![M, n₃]⟩ : Shape).Idx) (off : Nat) (hoff : off + m ≤ M)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk₁ : (⟨2, ![1, n₁]⟩ : Shape).Broadcasts ⟨2, ![m, n₁]⟩)
    (hh₁ : (⟨2, ![1, n₁]⟩ : Shape).BroadcastsInDim ⟨2, ![M, n₁]⟩ (![0, 1] : Fin 2 → Fin 2))
    (hz₁ : (⟨0, ![]⟩ : Shape).BroadcastsInDim ⟨2, ![M, n₁]⟩ (![] : Fin 0 → Fin 2))
    (hk₂ : (⟨2, ![1, n₂]⟩ : Shape).Broadcasts ⟨2, ![m, n₂]⟩)
    (hh₂ : (⟨2, ![1, n₂]⟩ : Shape).BroadcastsInDim ⟨2, ![M, n₂]⟩ (![0, 1] : Fin 2 → Fin 2))
    (hz₂ : (⟨0, ![]⟩ : Shape).BroadcastsInDim ⟨2, ![M, n₂]⟩ (![] : Fin 0 → Fin 2))
    (hk₃ : (⟨2, ![1, n₃]⟩ : Shape).Broadcasts ⟨2, ![m, n₃]⟩)
    (hh₃ : (⟨2, ![1, n₃]⟩ : Shape).BroadcastsInDim ⟨2, ![M, n₃]⟩ (![0, 1] : Fin 2 → Fin 2))
    (z : BitVec 32) (j : (⟨2, ![m, n₃]⟩ : Shape).Idx) :
    addf (matmul (DotDims.plain m n₂ n₃) prec
          (maximumf (addf (matmul (DotDims.plain m n₁ n₂) prec
                (maximumf (addf (matmul (DotDims.plain m k n₁) prec x w₁ (constant ⟨2, ![m, n₁]⟩ .f32 0x00000000#32))
                      (broadcastTo ⟨2, ![m, n₁]⟩ b₁ hk₁))
                    (broadcast ⟨2, ![m, n₁]⟩ (Scalar.ofBits (F := Ideal) .f32 z)))
                w₂ (constant ⟨2, ![m, n₂]⟩ .f32 0x00000000#32))
              (broadcastTo ⟨2, ![m, n₂]⟩ b₂ hk₂))
            (broadcast ⟨2, ![m, n₂]⟩ (Scalar.ofBits (F := Ideal) .f32 z)))
          w₃ (constant ⟨2, ![m, n₃]⟩ .f32 0x00000000#32))
        (broadcastTo ⟨2, ![m, n₃]⟩ b₃ hk₃) j
      = addf (Host.dotGeneral (DotDims.plain M n₂ n₃) prec
            (maximumf (addf (Host.dotGeneral (DotDims.plain M n₁ n₂) prec
                  (maximumf (addf (Host.dotGeneral (DotDims.plain M k n₁) prec X w₁) (broadcastInDim ⟨2, ![M, n₁]⟩ ![0, 1] hh₁ b₁))
                    (broadcastInDim ⟨2, ![M, n₁]⟩ ![] hz₁ (constant ⟨0, ![]⟩ .f32 z)))
                  w₂)
                (broadcastInDim ⟨2, ![M, n₂]⟩ ![0, 1] hh₂ b₂))
              (broadcastInDim ⟨2, ![M, n₂]⟩ ![] hz₂ (constant ⟨0, ![]⟩ .f32 z)))
            w₃)
          (broadcastInDim ⟨2, ![M, n₃]⟩ ![0, 1] hh₃ b₃) (eo j) :=
  linear_row_block prec _ w₃ b₃ _ (rowShift n₂ off hoff) eo off
    (fun y => linear_relu_row_block prec _ w₂ b₂ _ (rowShift n₁ off hoff) (rowShift n₂ off hoff) off
      (fun y' => linear_relu_row_block prec x w₁ b₁ X ex (rowShift n₁ off hoff) off hx hex0 hex1 (fun _ => rfl) (fun _ => rfl)
        hk₁ hh₁ z hz₁ y')
      (fun _ => rfl) (fun _ => rfl) (fun _ => rfl) (fun _ => rfl) hk₂ hh₂ z hz₂ y)
    (fun _ => rfl) (fun _ => rfl) heo0 heo1 hk₃ hh₃ j

end Cert.KernelIdeal.Decoder

end
-- ==== Proof.DecoderBlock.lean ====
/-
  The edge decoder's result array, over the extended reals.

  The region runs 50 points. Point t reads block t of the 500000 rows of Z (10000 rows of 128 columns), and the whole of the
  three weight matrices and the three bias rows; it computes, on that block, max(max(z · W₁ + B₁, 0) · W₂ + B₂, 0) · W₃ + B₃ — each
  product accumulated into zero, each bias row repeated over the block's rows — and writes the 10000 results back as block t of
  the one-column result array. A row of the perceptron depends on the same row of Z only, so what point t writes is rows
  10000 t, …, 10000 t + 9999 of the host's whole-array perceptron; the 50 blocks cover all 500000 rows (row r is in the block of
  point r / 10000), so the array ends holding the host's perceptron of the arrays as the region found them.
-/
import proofs.«162854_j13142599925848_1_alg».proof.Proof.Gen.KernelIdeal.Frame
import proofs.«162854_j13142599925848_1_alg».proof.Proof.LibPerceptronThree
import Idealize.ShloMosaic.Lib.Pipeline.Value

noncomputable section

namespace Cert.KernelIdeal.Decoder

open Cert.KernelIdeal Cert.KernelIdeal.Gen Idealize.ShloMosaic Idealize.ShloMosaic.TcCoe Idealize.SL.Sem Idealize.ShloMosaic.ValueIdx

/-- The host's perceptron of the whole arrays: max(max(Z · W₁ + B₁, 0) · W₂ + B₂, 0) · W₃ + B₃, each bias row spread over all rows. -/
abbrev decoder (Z : FVec Ideal S500000x128 .f32) (W1 : FVec Ideal S128x64 .f32) (B1 : FVec Ideal S1x64 .f32)
    (W2 : FVec Ideal S64x64 .f32) (B2 : FVec Ideal S1x64 .f32) (W3 : FVec Ideal S64x1 .f32) (B3 : FVec Ideal S1x1 .f32)
    (hb64 : S1x64.BroadcastsInDim S500000x64 (![0, 1] : Fin 2 → Fin 2)) (hz64 : S_.BroadcastsInDim S500000x64 (![] : Fin 0 → Fin 2))
    (hb1 : S1x1.BroadcastsInDim S500000x1 (![0, 1] : Fin 2 → Fin 2)) : FVec Ideal S500000x1 .f32 :=
  addf (Host.dotGeneral (F := Ideal) (DotDims.plain 500000 64 1) none
      (maximumf (addf (Host.dotGeneral (F := Ideal) (DotDims.plain 500000 64 64) none
          (maximumf (addf (Host.dotGeneral (F := Ideal) (DotDims.plain 500000 128 64) none Z W1)
                (broadcastInDim S500000x64 ![0, 1] hb64 B1))
            (broadcastInDim S500000x64 ![] hz64 (constant (F := Ideal) S_ .f32 0x00000000#32)))
          W2)
        (broadcastInDim S500000x64 ![0, 1] hb64 B2))
      (broadcastInDim S500000x64 ![] hz64 (constant (F := Ideal) S_ .f32 0x00000000#32)))
      W3)
    (broadcastInDim S500000x1 ![0, 1] hb1 B3)

/-- The kernel's payload on one block of 10000 rows, read at a block index, is the host's perceptron read where the result block
    puts that index: the block of `Z` sits at rows `off …` of `Z`, the weights and bias rows are the whole arrays. -/
theorem block_eq (x0 : Vec Ideal S10000x128 .f32) (x1 : Vec Ideal S128x64 .f32) (x2 : Vec Ideal S1x64 .f32)
    (x3 : Vec Ideal S64x64 .f32) (x4 : Vec Ideal S1x64 .f32) (x5 : Vec Ideal S64x1 .f32) (x6 : Vec Ideal S1x1 .f32)
    (Z : FVec Ideal S500000x128 .f32) (W1 : FVec Ideal S128x64 .f32) (B1 : FVec Ideal S1x64 .f32)
    (W2 : FVec Ideal S64x64 .f32) (B2 : FVec Ideal S1x64 .f32) (W3 : FVec Ideal S64x1 .f32) (B3 : FVec Ideal S1x1 .f32)
    (ex : S10000x128.Idx → S500000x128.Idx) (eo : S10000x1.Idx → S500000x1.Idx) (off : Nat) (hoff : off + 10000 ≤ 500000)
    (hx : ∀ y, x0 y = Z (ex y)) (h1 : x1 = W1) (h2 : x2 = B1) (h3 : x3 = W2) (h4 : x4 = B2) (h5 : x5 = W3) (h6 : x6 = B3)
    (hex0 : ∀ y, (ex y 0).val = off + (y 0).val) (hex1 : ∀ y, (ex y 1).val = (y 1).val)
    (heo0 : ∀ y, (eo y 0).val = off + (y 0).val) (heo1 : ∀ y, (eo y 1).val = (y 1).val)
    (hb64 : S1x64.BroadcastsInDim S500000x64 (![0, 1] : Fin 2 → Fin 2)) (hz64 : S_.BroadcastsInDim S500000x64 (![] : Fin 0 → Fin 2))
    (hb1 : S1x1.BroadcastsInDim S500000x1 (![0, 1] : Fin 2 → Fin 2)) (j : S10000x1.Idx) :
    k6_pay1 (F := Ideal) x0 x1 x2 x3 x4 x5 x6 j = decoder Z W1 B1 W2 B2 W3 B3 hb64 hz64 hb1 (eo j) := by
  subst h1 h2 h3 h4 h5 h6
  unfold k6_pay1
  simp only [shapeCast_self, matmul_truncf]
  exact mlp_row_block none x0 Z x1 x2 x3 x4 x5 x6 ex eo off hoff hx hex0 hex1 heo0 heo1
    broadcasts_S1x64_S10000x64 hb64 hz64 broadcasts_S1x64_S10000x64 hb64 hz64 broadcasts_S1x1_S10000x1 hb1 0x00000000#32 j

theorem zeros : (![0, 0] : Fin 2 → Nat) = fun _ => 0 := funext fun a => by fin_cases a <;> rfl

/-- The printed index maps, decided over the 50 points: the block of `Z` and the result block are both block `t` of their rows;
    every other window's block index is zero on both axes. -/
theorem index_facts : ∀ t : Fin cfg6.N, (win6_0.index t (0 : Fin 2) = t.val ∧ win6_0.index t (1 : Fin 2) = 0
      ∧ win6_7.index t (0 : Fin 2) = t.val ∧ win6_7.index t (1 : Fin 2) = 0)
    ∧ (∀ a, win6_1.index t a = 0) ∧ (∀ a, win6_2.index t a = 0) ∧ (∀ a, win6_3.index t a = 0)
    ∧ (∀ a, win6_4.index t a = 0) ∧ (∀ a, win6_5.index t a = 0) ∧ (∀ a, win6_6.index t a = 0) :=
  (by decide +kernel : ∀ t : Fin grid6.N, _)

variable (V : (c : Dev nD) → (b : Ref sig .tc) → Buf (Elt Ideal) ((c : Thread nD τ).loc b))

/-- The weights' and bias rows' windows hold their whole arrays at every point: a block at index zero has its array's coordinates. -/
theorem weights_whole (c : Dev nD) (t : Fin cfg6.N) :
    iblk6 V c 1 t = V c main_v179 ∧ iblk6 V c 2 t = V c main_v182 ∧ iblk6 V c 3 t = V c main_v180
      ∧ iblk6 V c 4 t = V c main_v183 ∧ iblk6 V c 5 t = V c main_v181 ∧ iblk6 V c 6 t = V c main_v184 := by
  obtain ⟨-, h1, h2, h3, h4, h5, h6⟩ := index_facts t
  exact ⟨funext fun y => congrArg (V c main_v179) (funext fun a => Fin.ext (win6_1.rect_emb_val_of_index_zero t a (h1 a) y)),
    funext fun y => congrArg (V c main_v182) (funext fun a => Fin.ext (win6_2.rect_emb_val_of_index_zero t a (h2 a) y)),
    funext fun y => congrArg (V c main_v180) (funext fun a => Fin.ext (win6_3.rect_emb_val_of_index_zero t a (h3 a) y)),
    funext fun y => congrArg (V c main_v183) (funext fun a => Fin.ext (win6_4.rect_emb_val_of_index_zero t a (h4 a) y)),
    funext fun y => congrArg (V c main_v181) (funext fun a => Fin.ext (win6_5.rect_emb_val_of_index_zero t a (h5 a) y)),
    funext fun y => congrArg (V c main_v184) (funext fun a => Fin.ext (win6_6.rect_emb_val_of_index_zero t a (h6 a) y))⟩

/-- What point `t` writes back is block `t` of the host's perceptron of the arrays as the region finds them. -/
theorem flushed_eq (c : Dev nD) (t : Fin cfg6.N)
    (hb64 : S1x64.BroadcastsInDim S500000x64 (![0, 1] : Fin 2 → Fin 2)) (hz64 : S_.BroadcastsInDim S500000x64 (![] : Fin 0 → Fin 2))
    (hb1 : S1x1.BroadcastsInDim S500000x1 (![0, 1] : Fin 2 → Fin 2)) :
    (dat6 (F := Ideal) V c).flushed 7 t = ((cfg6.win 7).blk t).view.read (Elt Ideal)
      (decoder (V c main_v178) (V c main_v179) (V c main_v182) (V c main_v180) (V c main_v183) (V c main_v181) (V c main_v184) hb64 hz64 hb1) := by
  show (cfg6.win 7).cut (grid6.coords t) ((dat6 V c).after 7 t) = _
  rw [after6_7]
  unfold out6_7
  rw [View.canon_unit_zero zeros]
  simp only [View.ld_unit_zero (S := S10000x128) zeros, View.ld_unit_zero (S := S128x64) zeros, View.ld_unit_zero (S := S1x64) zeros,
    View.ld_unit_zero (S := S64x64) zeros, View.ld_unit_zero (S := S64x1) zeros, View.ld_unit_zero (S := S1x1) zeros]
  obtain ⟨⟨e00, e01, e70, e71⟩, -⟩ := index_facts t
  obtain ⟨w1, w2, w3, w4, w5, w6⟩ := weights_whole V c t
  have ht : t.val < 50 := lt_of_lt_of_eq t.isLt N_6
  funext j
  refine block_eq _ _ _ _ _ _ _ (V c main_v178) _ _ _ _ _ _ ((cfg6.win 0).blk t).view.emb ((cfg6.win 7).blk t).view.emb (t.val * 10000)
    (by omega) (fun y => rfl) w1 w2 w3 w4 w5 w6 (fun y => ?_) (fun y => ?_) (fun y => ?_) (fun y => ?_) hb64 hz64 hb1 j
  · show win6_0.index t (0 : Fin 2) * 10000 + 1 * (y 0).val = t.val * 10000 + (y 0).val
    rw [e00]; omega
  · show win6_0.index t (1 : Fin 2) * 128 + 1 * (y 1).val = (y 1).val
    rw [e01]; omega
  · show win6_7.index t (0 : Fin 2) * 10000 + 1 * (y 0).val = t.val * 10000 + (y 0).val
    rw [e70]; omega
  · show win6_7.index t (1 : Fin 2) * 1 + 1 * (y 1).val = (y 1).val
    rw [e71]; omega

/-- An index of the result array is in point `t`'s block iff each coordinate is in the block's range on its axis. -/
theorem mem_block (t : Fin cfg6.N) (i : S500000x1.Idx) :
    i ∈ ((cfg6.win 7).blk t).view.set ↔ ∀ a : Fin 2, win6_7.index t a * S10000x1.size a ≤ (i a).val
      ∧ (i a).val < win6_7.index t a * S10000x1.size a + S10000x1.size a := by
  show i ∈ ((View.whole main_v185).slice (win6_7.rect t)).set ↔ _
  rw [View.set_slice_whole, Rect.mem_set_unit]
  exact Iff.rfl

/-- The 50 blocks of 10000 rows cover the result array: row `r` is in the block of point `r / 10000`. -/
theorem covered (i : S500000x1.Idx) : ∃ t : Fin cfg6.N, (cfg6.win 7).flush t = true ∧ i ∈ ((cfg6.win 7).blk t).view.set := by
  have hi0 : (i 0).val < 500000 := (i 0).isLt
  have hi1 : (i 1).val < 1 := (i 1).isLt
  have ht : (i 0).val / 10000 < cfg6.N := lt_of_lt_of_eq (by omega) N_6.symm
  obtain ⟨⟨-, -, e70, e71⟩, -⟩ := index_facts ⟨(i 0).val / 10000, ht⟩
  refine ⟨⟨(i 0).val / 10000, ht⟩, flush6_7 _, ?_⟩
  rw [mem_block]
  intro a
  match a with
  | ⟨0, _⟩ =>
    show win6_7.index ⟨(i 0).val / 10000, ht⟩ (0 : Fin 2) * 10000 ≤ (i 0).val
      ∧ (i 0).val < win6_7.index ⟨(i 0).val / 10000, ht⟩ (0 : Fin 2) * 10000 + 10000
    rw [e70]; show (i 0).val / 10000 * 10000 ≤ (i 0).val ∧ (i 0).val < (i 0).val / 10000 * 10000 + 10000; omega
  | ⟨1, _⟩ =>
    show win6_7.index ⟨(i 0).val / 10000, ht⟩ (1 : Fin 2) * 1 ≤ (i 1).val
      ∧ (i 1).val < win6_7.index ⟨(i 0).val / 10000, ht⟩ (1 : Fin 2) * 1 + 1
    rw [e71]; omega

/-- The result array after the region is the host's perceptron of the arrays as the region finds them. -/
theorem array_eq (c : Dev nD)
    (hb64 : S1x64.BroadcastsInDim S500000x64 (![0, 1] : Fin 2 → Fin 2)) (hz64 : S_.BroadcastsInDim S500000x64 (![] : Fin 0 → Fin 2))
    (hb1 : S1x1.BroadcastsInDim S500000x1 (![0, 1] : Fin 2 → Fin 2)) :
    (dat6 (F := Ideal) V c).arrAt 7 cfg6.N
      = addf (Host.dotGeneral (F := Ideal) (φ₁ := .f32) (φ₂ := .f32) (DotDims.plain 500000 64 1) none
          (maximumf (addf (Host.dotGeneral (F := Ideal) (φ₁ := .f32) (φ₂ := .f32) (DotDims.plain 500000 64 64) none
              (maximumf (addf (Host.dotGeneral (F := Ideal) (φ₁ := .f32) (φ₂ := .f32) (DotDims.plain 500000 128 64) none
                      (V c main_v178) (V c main_v179))
                    (broadcastInDim S500000x64 ![0, 1] hb64 (V c main_v182)))
                (broadcastInDim S500000x64 ![] hz64 (constant (F := Ideal) S_ .f32 0x00000000#32)))
              (V c main_v180))
            (broadcastInDim S500000x64 ![0, 1] hb64 (V c main_v183)))
          (broadcastInDim S500000x64 ![] hz64 (constant (F := Ideal) S_ .f32 0x00000000#32)))
          (V c main_v181))
        (broadcastInDim S500000x1 ![0, 1] hb1 (V c main_v184)) :=
  (dat6 (F := Ideal) V c).arrAt_eq_of_cover 7 _ (fun t _ => flushed_eq V c t hb64 hz64 hb1) covered

end Cert.KernelIdeal.Decoder
end
-- ==== Proof.Bridge.lean ====
/-
  The kernel program's buffers, boundary by boundary, are the reference's stages.

  Layer by layer: the mean fed to a region is the reference's mean of the same source array (the previous layer's result,
  already identified with the reference's stage); the region's weight matrices are the reference's transposed stack
  members (transposing the whole stack first or one member afterwards gives the same matrix); its bias row is the
  reference's spread bias vector; so the region's result array — the host's whole-array layer of what the region found — is
  the reference's layer stage, term for term. The decoder region closes the same way, and the last reshape is the
  reference's.
-/
import proofs.«162854_j13142599925848_1_alg».proof.Proof.Gen.KernelIdeal.Frame
import proofs.«162854_j13142599925848_1_alg».proof.Proof.Gen.ReferenceIdeal.Read
import proofs.«162854_j13142599925848_1_alg».proof.Proof.Carry
import proofs.«162854_j13142599925848_1_alg».proof.Proof.Stretch
import proofs.«162854_j13142599925848_1_alg».proof.Proof.LibStackLayouts
import proofs.«162854_j13142599925848_1_alg».proof.Proof.SageRegion0
import proofs.«162854_j13142599925848_1_alg».proof.Proof.SageRegion1
import proofs.«162854_j13142599925848_1_alg».proof.Proof.SageRegion2
import proofs.«162854_j13142599925848_1_alg».proof.Proof.SageRegion3
import proofs.«162854_j13142599925848_1_alg».proof.Proof.SageRegion4
import proofs.«162854_j13142599925848_1_alg».proof.Proof.SageRegion5
import proofs.«162854_j13142599925848_1_alg».proof.Proof.DecoderBlock

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The transposed left weight stack, as every later boundary finds it. -/
theorem stackL_W1 (c : Dev nD) : W1 m ρ c (Proc.devRef .tc main_v0)
    = transpose S3x2x64x64 [0, 1, 3, 2] (m ((c : Thread nD τ).loc main_arg2)) transposes_S3x2x64x64_S3x2x64x64_0_1_3_2 :=
  Stretch.stack0_l (W0 m ρ c)

theorem stackR_W1 (c : Dev nD) : W1 m ρ c (Proc.devRef .tc main_v1)
    = transpose S3x2x64x64 [0, 1, 3, 2] (m ((c : Thread nD τ).loc main_arg3)) transposes_S3x2x64x64_S3x2x64x64_0_1_3_2 :=
  Stretch.stack0_r (W0 m ρ c)

/-! ## Region 0 -/

theorem mean_in0 (c : Dev nD) : V1 m ρ c main_v20 = val_main_v24 (F := Ideal) (m ((c : Thread nD τ).loc main_arg0)) (m ((c : Thread nD τ).loc main_arg11)) (m ((c : Thread nD τ).loc main_arg12)) :=
  Stretch.mean0 (W0 m ρ c)

theorem feat_in0 (c : Dev nD) : V1 m ρ c main_arg1 = (m ((c : Thread nD τ).loc main_arg1)) :=
  Carry.keep0 (W0 m ρ c) (by decide)

theorem wl_in0 (c : Dev nD) : V1 m ρ c main_v22 = val_main_v25 (F := Ideal) (m ((c : Thread nD τ).loc main_arg2)) :=
  (Stretch.wl0 (W0 m ρ c)).trans (Layouts.transposed_member (m ((c : Thread nD τ).loc main_arg2)) 0 0 (by omega) (by omega) _ _ _ _)

theorem wr_in0 (c : Dev nD) : V1 m ρ c main_v26 = val_main_v30 (F := Ideal) (m ((c : Thread nD τ).loc main_arg3)) :=
  (Stretch.wr0 (W0 m ρ c)).trans (Layouts.transposed_member (m ((c : Thread nD τ).loc main_arg3)) 0 0 (by omega) (by omega) _ _ _ _)

theorem bias_in0 (c : Dev nD) : V1 m ρ c main_v27 = val_main_v27 (F := Ideal) (m ((c : Thread nD τ).loc main_arg4)) :=
  (Stretch.bias0 (W0 m ρ c)).trans (Layouts.row_of_vector _ _ _)

/-- Region 0's result array is the reference's layer stage. -/
theorem z0 (c : Dev nD) : W2 m ρ c (Proc.devRef .tc main_v28) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  refine (W2_arr m ρ c 5).trans ((SageRegion0.array_eq (V1 m ρ) c Cert.ReferenceIdeal.Facts₀.bcast_S1x64_S50000x64_0_1 Cert.ReferenceIdeal.Facts₀.bcast_S_S50000x64).trans ?_)
  rw [mean_in0 m ρ c, feat_in0 m ρ c, wl_in0 m ρ c, wr_in0 m ρ c, bias_in0 m ρ c]
  rfl

/-! ## Region 1 -/

theorem mean_in1 (c : Dev nD) : V3 m ρ c main_v47 = val_main_v57 (F := Ideal) (m ((c : Thread nD τ).loc main_arg1)) (m ((c : Thread nD τ).loc main_arg13)) (m ((c : Thread nD τ).loc main_arg14)) :=
  (Stretch.mean1 (W2 m ρ c)).trans (by rw [Carry.arg1_W2 m ρ c, Carry.arg13_W2 m ρ c, Carry.arg14_W2 m ρ c])

theorem feat_in1 (c : Dev nD) : V3 m ρ c main_arg0 = (m ((c : Thread nD τ).loc main_arg0)) :=
  (Carry.keep1 (W2 m ρ c) (by decide)).trans (Carry.arg0_W2 m ρ c)

theorem wl_in1 (c : Dev nD) : V3 m ρ c main_v49 = val_main_v58 (F := Ideal) (m ((c : Thread nD τ).loc main_arg2)) :=
  (Stretch.wl1 (W2 m ρ c)).trans ((congrArg (fun y => Stretch.member 0 1 y slices_S3x2x64x64_S1x1x64x64_0_1_0_0) ((Carry.main_v0_W2 m ρ c).trans (stackL_W1 m ρ c))).trans (Layouts.transposed_member (m ((c : Thread nD τ).loc main_arg2)) 0 1 (by omega) (by omega) _ _ _ _))

theorem wr_in1 (c : Dev nD) : V3 m ρ c main_v53 = val_main_v63 (F := Ideal) (m ((c : Thread nD τ).loc main_arg3)) :=
  (Stretch.wr1 (W2 m ρ c)).trans ((congrArg (fun y => Stretch.member 0 1 y slices_S3x2x64x64_S1x1x64x64_0_1_0_0) ((Carry.main_v1_W2 m ρ c).trans (stackR_W1 m ρ c))).trans (Layouts.transposed_member (m ((c : Thread nD τ).loc main_arg3)) 0 1 (by omega) (by omega) _ _ _ _))

theorem bias_in1 (c : Dev nD) : V3 m ρ c main_v54 = val_main_v60 (F := Ideal) (m ((c : Thread nD τ).loc main_arg4)) :=
  (Stretch.bias1 (W2 m ρ c)).trans ((congrArg (fun y => Stretch.biasRow 0 1 y slices_S3x2x64_S1x1x64_0_1_0) (Carry.arg4_W2 m ρ c)).trans (Layouts.row_of_vector _ _ _))

/-- Region 1's result array is the reference's layer stage. -/
theorem z1 (c : Dev nD) : W4 m ρ c (Proc.devRef .tc main_v55) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) := by
  refine (W4_arr m ρ c 5).trans ((SageRegion1.array_eq (V3 m ρ) c Cert.ReferenceIdeal.Facts₀.bcast_S1x64_S200000x64_0_1 Cert.ReferenceIdeal.Facts₀.bcast_S_S200000x64).trans ?_)
  rw [mean_in1 m ρ c, feat_in1 m ρ c, wl_in1 m ρ c, wr_in1 m ρ c, bias_in1 m ρ c]
  rfl

/-! ## Region 2 -/

theorem mean_in2 (c : Dev nD) : V5 m ρ c main_v74 = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) :=
  (Stretch.mean2 (W4 m ρ c)).trans (by rw [z1 m ρ c, Carry.arg11_W4 m ρ c, Carry.arg12_W4 m ρ c]; rfl)

theorem feat_in2 (c : Dev nD) : V5 m ρ c main_v28 = (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12))) :=
  (Carry.keep2 (W4 m ρ c) (by decide)).trans ((Carry.main_v28_W4 m ρ c).trans (z0 m ρ c))

theorem wl_in2 (c : Dev nD) : V5 m ρ c main_v76 = val_main_v93 (F := Ideal) (m ((c : Thread nD τ).loc main_arg2)) :=
  (Stretch.wl2 (W4 m ρ c)).trans ((congrArg (fun y => Stretch.member 1 0 y slices_S3x2x64x64_S1x1x64x64_1_0_0_0) ((Carry.main_v0_W4 m ρ c).trans (stackL_W1 m ρ c))).trans (Layouts.transposed_member (m ((c : Thread nD τ).loc main_arg2)) 1 0 (by omega) (by omega) _ _ _ _))

theorem wr_in2 (c : Dev nD) : V5 m ρ c main_v80 = val_main_v98 (F := Ideal) (m ((c : Thread nD τ).loc main_arg3)) :=
  (Stretch.wr2 (W4 m ρ c)).trans ((congrArg (fun y => Stretch.member 1 0 y slices_S3x2x64x64_S1x1x64x64_1_0_0_0) ((Carry.main_v1_W4 m ρ c).trans (stackR_W1 m ρ c))).trans (Layouts.transposed_member (m ((c : Thread nD τ).loc main_arg3)) 1 0 (by omega) (by omega) _ _ _ _))

theorem bias_in2 (c : Dev nD) : V5 m ρ c main_v81 = val_main_v95 (F := Ideal) (m ((c : Thread nD τ).loc main_arg4)) :=
  (Stretch.bias2 (W4 m ρ c)).trans ((congrArg (fun y => Stretch.biasRow 1 0 y slices_S3x2x64_S1x1x64_1_0_0) (Carry.arg4_W4 m ρ c)).trans (Layouts.row_of_vector _ _ _))

/-- Region 2's result array is the reference's layer stage. -/
theorem z2 (c : Dev nD) : W6 m ρ c (Proc.devRef .tc main_v82) = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W6_arr m ρ c 5).trans ((SageRegion2.array_eq (V5 m ρ) c Cert.ReferenceIdeal.Facts₀.bcast_S1x64_S50000x64_0_1 Cert.ReferenceIdeal.Facts₀.bcast_S_S50000x64).trans ?_)
  rw [mean_in2 m ρ c, feat_in2 m ρ c, wl_in2 m ρ c, wr_in2 m ρ c, bias_in2 m ρ c]
  rfl

/-! ## Region 3 -/

theorem mean_in3 (c : Dev nD) : V7 m ρ c main_v101 = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) :=
  (Stretch.mean3 (W6 m ρ c)).trans (by rw [(Carry.main_v28_W6 m ρ c).trans (z0 m ρ c), Carry.arg13_W6 m ρ c, Carry.arg14_W6 m ρ c]; rfl)

theorem feat_in3 (c : Dev nD) : V7 m ρ c main_v55 = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14))) :=
  (Carry.keep3 (W6 m ρ c) (by decide)).trans (z1 m ρ c)

theorem wl_in3 (c : Dev nD) : V7 m ρ c main_v103 = val_main_v126 (F := Ideal) (m ((c : Thread nD τ).loc main_arg2)) :=
  (Stretch.wl3 (W6 m ρ c)).trans ((congrArg (fun y => Stretch.member 1 1 y slices_S3x2x64x64_S1x1x64x64_1_1_0_0) ((Carry.main_v0_W6 m ρ c).trans (stackL_W1 m ρ c))).trans (Layouts.transposed_member (m ((c : Thread nD τ).loc main_arg2)) 1 1 (by omega) (by omega) _ _ _ _))

theorem wr_in3 (c : Dev nD) : V7 m ρ c main_v107 = val_main_v131 (F := Ideal) (m ((c : Thread nD τ).loc main_arg3)) :=
  (Stretch.wr3 (W6 m ρ c)).trans ((congrArg (fun y => Stretch.member 1 1 y slices_S3x2x64x64_S1x1x64x64_1_1_0_0) ((Carry.main_v1_W6 m ρ c).trans (stackR_W1 m ρ c))).trans (Layouts.transposed_member (m ((c : Thread nD τ).loc main_arg3)) 1 1 (by omega) (by omega) _ _ _ _))

theorem bias_in3 (c : Dev nD) : V7 m ρ c main_v108 = val_main_v128 (F := Ideal) (m ((c : Thread nD τ).loc main_arg4)) :=
  (Stretch.bias3 (W6 m ρ c)).trans ((congrArg (fun y => Stretch.biasRow 1 1 y slices_S3x2x64_S1x1x64_1_1_0) (Carry.arg4_W6 m ρ c)).trans (Layouts.row_of_vector _ _ _))

/-- Region 3's result array is the reference's layer stage. -/
theorem z3 (c : Dev nD) : W8 m ρ c (Proc.devRef .tc main_v109) = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W8_arr m ρ c 5).trans ((SageRegion3.array_eq (V7 m ρ) c Cert.ReferenceIdeal.Facts₀.bcast_S1x64_S200000x64_0_1 Cert.ReferenceIdeal.Facts₀.bcast_S_S200000x64).trans ?_)
  rw [mean_in3 m ρ c, feat_in3 m ρ c, wl_in3 m ρ c, wr_in3 m ρ c, bias_in3 m ρ c]
  rfl

/-! ## Region 4 -/

theorem mean_in4 (c : Dev nD) : V9 m ρ c main_v128 = val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) :=
  (Stretch.mean4 (W8 m ρ c)).trans (by rw [z3 m ρ c, Carry.arg11_W8 m ρ c, Carry.arg12_W8 m ρ c]; rfl)

theorem feat_in4 (c : Dev nD) : V9 m ρ c main_v82 = (val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14))) :=
  (Carry.keep4 (W8 m ρ c) (by decide)).trans ((Carry.main_v82_W8 m ρ c).trans (z2 m ρ c))

theorem wl_in4 (c : Dev nD) : V9 m ρ c main_v130 = val_main_v161 (F := Ideal) (m ((c : Thread nD τ).loc main_arg2)) :=
  (Stretch.wl4 (W8 m ρ c)).trans ((congrArg (fun y => Stretch.member 2 0 y slices_S3x2x64x64_S1x1x64x64_2_0_0_0) ((Carry.main_v0_W8 m ρ c).trans (stackL_W1 m ρ c))).trans (Layouts.transposed_member (m ((c : Thread nD τ).loc main_arg2)) 2 0 (by omega) (by omega) _ _ _ _))

theorem wr_in4 (c : Dev nD) : V9 m ρ c main_v134 = val_main_v166 (F := Ideal) (m ((c : Thread nD τ).loc main_arg3)) :=
  (Stretch.wr4 (W8 m ρ c)).trans ((congrArg (fun y => Stretch.member 2 0 y slices_S3x2x64x64_S1x1x64x64_2_0_0_0) ((Carry.main_v1_W8 m ρ c).trans (stackR_W1 m ρ c))).trans (Layouts.transposed_member (m ((c : Thread nD τ).loc main_arg3)) 2 0 (by omega) (by omega) _ _ _ _))

theorem bias_in4 (c : Dev nD) : V9 m ρ c main_v135 = val_main_v163 (F := Ideal) (m ((c : Thread nD τ).loc main_arg4)) :=
  (Stretch.bias4 (W8 m ρ c)).trans ((congrArg (fun y => Stretch.biasRow 2 0 y slices_S3x2x64_S1x1x64_2_0_0) (Carry.arg4_W8 m ρ c)).trans (Layouts.row_of_vector _ _ _))

/-- Region 4's result array is the reference's layer stage. -/
theorem z4 (c : Dev nD) : W10 m ρ c (Proc.devRef .tc main_v136) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W10_arr m ρ c 5).trans ((SageRegion4.array_eq (V9 m ρ) c Cert.ReferenceIdeal.Facts₀.bcast_S1x64_S50000x64_0_1).trans ?_)
  rw [mean_in4 m ρ c, feat_in4 m ρ c, wl_in4 m ρ c, wr_in4 m ρ c, bias_in4 m ρ c]
  rfl

/-! ## Region 5 -/

theorem mean_in5 (c : Dev nD) : V11 m ρ c main_v155 = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) :=
  (Stretch.mean5 (W10 m ρ c)).trans (by rw [(Carry.main_v82_W10 m ρ c).trans (z2 m ρ c), Carry.arg13_W10 m ρ c, Carry.arg14_W10 m ρ c]; rfl)

theorem feat_in5 (c : Dev nD) : V11 m ρ c main_v109 = (val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14))) :=
  (Carry.keep5 (W10 m ρ c) (by decide)).trans (z3 m ρ c)

theorem wl_in5 (c : Dev nD) : V11 m ρ c main_v157 = val_main_v194 (F := Ideal) (m ((c : Thread nD τ).loc main_arg2)) :=
  (Stretch.wl5 (W10 m ρ c)).trans ((congrArg (fun y => Stretch.member 2 1 y slices_S3x2x64x64_S1x1x64x64_2_1_0_0) ((Carry.main_v0_W10 m ρ c).trans (stackL_W1 m ρ c))).trans (Layouts.transposed_member (m ((c : Thread nD τ).loc main_arg2)) 2 1 (by omega) (by omega) _ _ _ _))

theorem wr_in5 (c : Dev nD) : V11 m ρ c main_v161 = val_main_v199 (F := Ideal) (m ((c : Thread nD τ).loc main_arg3)) :=
  (Stretch.wr5 (W10 m ρ c)).trans ((congrArg (fun y => Stretch.member 2 1 y slices_S3x2x64x64_S1x1x64x64_2_1_0_0) ((Carry.main_v1_W10 m ρ c).trans (stackR_W1 m ρ c))).trans (Layouts.transposed_member (m ((c : Thread nD τ).loc main_arg3)) 2 1 (by omega) (by omega) _ _ _ _))

theorem bias_in5 (c : Dev nD) : V11 m ρ c main_v162 = val_main_v196 (F := Ideal) (m ((c : Thread nD τ).loc main_arg4)) :=
  (Stretch.bias5 (W10 m ρ c)).trans ((congrArg (fun y => Stretch.biasRow 2 1 y slices_S3x2x64_S1x1x64_2_1_0) (Carry.arg4_W10 m ρ c)).trans (Layouts.row_of_vector _ _ _))

/-- Region 5's result array is the reference's layer stage. -/
theorem z5 (c : Dev nD) : W12 m ρ c (Proc.devRef .tc main_v163) = val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W12_arr m ρ c 5).trans ((SageRegion5.array_eq (V11 m ρ) c Cert.ReferenceIdeal.Facts₀.bcast_S1x64_S200000x64_0_1).trans ?_)
  rw [mean_in5 m ρ c, feat_in5 m ρ c, wl_in5 m ρ c, wr_in5 m ρ c, bias_in5 m ρ c]
  rfl

/-! ## The decoder region and the result -/

theorem edges_in6 (c : Dev nD) : V13 m ρ c main_v178 = val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (Stretch.edges6 (W12 m ρ c)).trans (by
    rw [z5 m ρ c, (Carry.main_v136_W12 m ρ c).trans (z4 m ρ c), Carry.arg15_W12 m ρ c, Carry.arg16_W12 m ρ c]
    rfl)

theorem w1_in6 (c : Dev nD) : V13 m ρ c main_v179 = val_main_v217 (F := Ideal) (m ((c : Thread nD τ).loc main_arg5)) :=
  (Stretch.w1_6 (W12 m ρ c)).trans (by rw [Carry.arg5_W12 m ρ c])

theorem w2_in6 (c : Dev nD) : V13 m ρ c main_v180 = val_main_v223 (F := Ideal) (m ((c : Thread nD τ).loc main_arg7)) :=
  (Stretch.w2_6 (W12 m ρ c)).trans (by rw [Carry.arg7_W12 m ρ c])

theorem w3_in6 (c : Dev nD) : V13 m ρ c main_v181 = val_main_v229 (F := Ideal) (m ((c : Thread nD τ).loc main_arg9)) :=
  (Stretch.w3_6 (W12 m ρ c)).trans (by rw [Carry.arg9_W12 m ρ c])

theorem b1_in6 (c : Dev nD) : V13 m ρ c main_v182 = val_main_v219 (F := Ideal) (m ((c : Thread nD τ).loc main_arg6)) :=
  (Stretch.b1_6 (W12 m ρ c)).trans ((congrArg (fun y => shapeCast S1x64 y shapeCasts_S64_S1x64) (Carry.arg6_W12 m ρ c)).trans (Layouts.row_of_vector _ _ _))

theorem b2_in6 (c : Dev nD) : V13 m ρ c main_v183 = val_main_v225 (F := Ideal) (m ((c : Thread nD τ).loc main_arg8)) :=
  (Stretch.b2_6 (W12 m ρ c)).trans ((congrArg (fun y => shapeCast S1x64 y shapeCasts_S64_S1x64) (Carry.arg8_W12 m ρ c)).trans (Layouts.row_of_vector _ _ _))

theorem b3_in6 (c : Dev nD) : V13 m ρ c main_v184 = val_main_v231 (F := Ideal) (m ((c : Thread nD τ).loc main_arg10)) :=
  (Stretch.b3_6 (W12 m ρ c)).trans ((congrArg (fun y => shapeCast S1x1 y shapeCasts_S1_S1x1) (Carry.arg10_W12 m ρ c)).trans (Layouts.row_of_vector _ _ _))

/-- The decoder region's result array is the reference's last stage before the reshape. -/
theorem z6 (c : Dev nD) : W14 m ρ c (Proc.devRef .tc main_v185) = val_main_v233 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W14_arr m ρ c 7).trans ((Decoder.array_eq (V13 m ρ) c Cert.ReferenceIdeal.Facts₀.bcast_S1x64_S500000x64_0_1 Cert.ReferenceIdeal.Facts₀.bcast_S_S500000x64 Cert.ReferenceIdeal.Facts₀.bcast_S1x1_S500000x1_0_1).trans ?_)
  rw [edges_in6 m ρ c, w1_in6 m ρ c, w2_in6 m ρ c, w3_in6 m ρ c, b1_in6 m ρ c, b2_in6 m ρ c, b3_in6 m ρ c]
  rfl

/-- The kernel program's result buffer holds the reference's result of the same arguments. -/
theorem result_eq (c : Dev nD) : W15 m ρ c (Proc.devRef .tc main_v186) = val_main_v234 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (Stretch.out7 (W14 m ρ c)).trans (by rw [z6 m ρ c]; rfl)

end Cert.KernelIdeal.Bridge

end
-- ==== Proof.lean ====
/-
  A three-layer heterogeneous graph network (users and restaurants, mean aggregation over two edge types) followed by an
  edge decoder, computed two ways, is one function over the extended reals.

  The kernel program computes each of the six graph-convolution layers Y = (mean · W_lᵀ + b) + H · W_rᵀ (rectified in the
  first two rounds) in a region that handles 10000 rows at a time, both products accumulated into zero from operands
  rounded to bf16, and the decoder max(max(Z · W₁ᵀ + b₁, 0) · W₂ᵀ + b₂, 0) · W₃ᵀ + b₃ likewise; the neighbour means (gather,
  scatter-add, division by the clamped count) and the endpoint gathers stay host operations, the same ones the reference
  uses. Over the extended reals rounding is the identity and a product into zero is the plain sum over the contracted
  coordinate, so each region's result array is the reference's layer on whole arrays; the weight matrices agree because
  transposing a stack and taking a member is taking the member and transposing it, and the bias rows because a vector
  recast as a row is the vector spread along the row. No sum is reordered and nothing is cancelled, so the inputs'
  finiteness is not used. The ideal pass rewrote nothing, so the kernel's idealization is its own text read over the
  extended reals.
-/
import proofs.«162854_j13142599925848_1_alg».proof.Defs
import proofs.«162854_j13142599925848_1_alg».proof.Proof.Gen.Kernel
import proofs.«162854_j13142599925848_1_alg».proof.Proof.Gen.Kernel.Skeleton
import proofs.«162854_j13142599925848_1_alg».proof.Proof.Gen.Kernel.Launch
import proofs.«162854_j13142599925848_1_alg».proof.Proof.Gen.Kernel.Points
import proofs.«162854_j13142599925848_1_alg».proof.Proof.Gen.Kernel.Frame
import proofs.«162854_j13142599925848_1_alg».proof.Proof.Gen.KernelIdeal
import proofs.«162854_j13142599925848_1_alg».proof.Proof.Gen.KernelIdeal.Skeleton
import proofs.«162854_j13142599925848_1_alg».proof.Proof.Gen.KernelIdeal.Launch
import proofs.«162854_j13142599925848_1_alg».proof.Proof.Gen.KernelIdeal.Points
import proofs.«162854_j13142599925848_1_alg».proof.Proof.Gen.KernelIdeal.Frame
import proofs.«162854_j13142599925848_1_alg».proof.Proof.Gen.ReferenceIdeal
import proofs.«162854_j13142599925848_1_alg».proof.Proof.Gen.ReferenceIdeal.Run
import proofs.«162854_j13142599925848_1_alg».proof.Proof.Gen.ReferenceIdeal.Read
import proofs.«162854_j13142599925848_1_alg».proof.Proof.Gen.Pre_finite_inputs
import proofs.«162854_j13142599925848_1_alg».proof.Proof.KernelRun
import proofs.«162854_j13142599925848_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's result of those arguments: the kernel
    program's result buffer read through its regions and host stretches, the reference's by its run. -/
theorem algebraic : Cert.algebraic_KernelIdeal_ReferenceIdeal := by
  intro m ρ m' ρ' _ hagree
  refine ⟨fun c => Cert.ReferenceIdeal.Read.val_main_v234 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Bridge.result_eq m ρ c), (h c).2⟩)
      (Cert.KernelIdeal.RunAll.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v234_eq, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
